-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_taf" .f32 0x41A00000#32 ((268435456 / 13421773 : ℝ) : EReal)
  ∧ IdealRules.named_const.Statement Cert.KernelIdeal.κ "inv_taf" .f32 0x41A00000#32 ((268435456 / 13421773 : ℝ) : EReal)
  ∧ IdealRules.truncf_extf.Statement Cert.KernelIdeal.S256x128 .f32 .bf16
  ∧ IdealRules.named_const.Statement Cert.KernelIdeal.κ "inv_taf" .f32 0x41A00000#32 ((268435456 / 13421773 : ℝ) : EReal)
  ∧ IdealRules.named_const.Statement Cert.KernelIdeal.κ "inv_taf" .f32 0x41A00000#32 ((268435456 / 13421773 : ℝ) : EReal)
  ∧ IdealRules.named_const.Statement Cert.KernelIdeal.κ "inv_taf" .f32 0x41A00000#32 ((268435456 / 13421773 : ℝ) : EReal)
  ∧ IdealRules.named_const.Statement Cert.KernelIdeal.κ "inv_taf" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S8192x128 : Shape := ⟨2, ![8192, 128]⟩
abbrev S8192 : Shape := ⟨1, ![8192]⟩
abbrev S8192x1 : Shape := ⟨2, ![8192, 1]⟩
abbrev S256x128 : Shape := ⟨2, ![256, 128]⟩
abbrev S256x1 : Shape := ⟨2, ![256, 1]⟩
abbrev S256 : Shape := ⟨1, ![256]⟩
abbrev S256x8192 : Shape := ⟨2, ![256, 8192]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .bf16⟩
  | .hbm, ⟨4, _⟩ => ⟨S8192x128, .bf16⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .bf16⟩
  | .local _ .vmem, ⟨3, _⟩ => ⟨S8192x128, .bf16⟩
  | .local _ .vmem, ⟨4, _⟩ => ⟨S256x128, .f32⟩
  | .local _ .vmem, ⟨5, _⟩ => ⟨S256x128, .f32⟩
  | .local _ .vmem, ⟨6, _⟩ => ⟨S8192x128, .bf16⟩
  | .local _ .vmem, ⟨7, _⟩ => ⟨S8192x128, .bf16⟩
  | .local _ .vmem, ⟨8, _⟩ => ⟨S256x1, .f32⟩
  | .local _ .vmem, ⟨9, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v20 : BitVec 32 := Scalar.muli arg0 c256_i32
  v20
def k1_off1 (i : grid1.Coords) : Fin 2 → Nat :=
  let arg0 : BitVec 32 := BitVec.ofNat 32 (i 0).val
  let c256_i32 : BitVec 32 := 256#32
  let v20 : BitVec 32 := Scalar.muli arg0 c256_i32
  let v21 : BitVec 32 := v20
  let v22 : Index := Scalar.indexCast v21
  let c0_8 : Index := 0#32
  ![v22.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  bitsLt_bf16_f32 : FTy.bits .bf16 < FTy.bits .f32
  packedbf16_S8192x128_S8192x128_0_0 : (Rect.unit (s := S8192x128) ![0, 0] S8192x128.size inb_S8192x128_S8192x128_0_0).PackedRows (EltTy.packing .bf16)
  inb_S256x128_S256x128_0_0 : ∀ a, (![0, 0] : Fin 2 → Nat) a + S256x128.size a ≤ S256x128.size a
  h_S256x128 : 0 < S256x128.numel
  reduces_S256x128_S256 : S256x128.Reduces [1] S256
  shapeCasts_S256_S256x1 : S256.ShapeCasts S256x1
  broadcasts_S256x1_S256x128 : S256x1.Broadcasts S256x128
  shapeCasts_S8192x128_S8192x128 : S8192x128.ShapeCasts S8192x128
  reduces_S256x8192_S256 : S256x8192.Reduces [1] S256
  shapeCasts_S256x128_S256x128 : S256x128.ShapeCasts S256x128
  inb_S256x1_S256x1_0_0 : ∀ a, (![0, 0] : Fin 2 → Nat) a + S256x1.size a ≤ S256x1.size a
  h_S256x1 : 0 < S256x1.numel
  reducesTo_S8192x1_S_d0_1 : S8192x1.ReducesTo [0, 1] S_
  h_S_ : 0 < S_.numel
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .bf16 = 32 ∨ (Rect.block (s := S8192x128) S8192x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .bf16 = 32 ∨ (Rect.block (s := S8192x128) S8192x128.size (cc0_transform_3 i) (hinb0_3 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S256x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x128.size a
  hwx1_0 : ∀ i : grid1.Coords, EltTy.bits .f32 = 32 ∨ (Rect.block (s := S8192x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .bf16 = 32 ∨ (Rect.block (s := S8192x128) S8192x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S8192x1.size a
  hwx1_3 : ∀ i : grid1.Coords, EltTy.bits .f32 = 32 ∨ (Rect.block (s := S8192x1) S256x1.size (cc1_transform_3 i) (hinb1_3 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_arg1) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8192x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8192x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S8192x16384 : Shape := ⟨2, ![8192, 16384]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x128, .f32⟩
  | .hbm, ⟨37, _⟩ => ⟨S8192x128, .f32⟩
  | .hbm, ⟨38, _⟩ => ⟨S128x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x16384, .f32⟩
  | .hbm, ⟨44, _⟩ => ⟨S8192, .i32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x16384, .f32⟩
  | .hbm, ⟨52, _⟩ => ⟨S8192x16384, .f32⟩
  | .hbm, ⟨53, _⟩ => ⟨S8192x16384, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1, .f32⟩
  | .hbm, ⟨58, _⟩ => ⟨S8192x16384, .f32⟩
  | .hbm, ⟨59, _⟩ => ⟨S8192x16384, .f32⟩
  | .hbm, ⟨60, _⟩ => ⟨S8192x1, .i32⟩
  | .hbm, ⟨61, _⟩ => ⟨S_, .i32⟩
  | .hbm, ⟨62, _⟩ => ⟨S8192x1, .i32⟩
  | .hbm, ⟨63, _⟩ => ⟨S8192x1, .i1⟩
  | .hbm, ⟨64, _⟩ => ⟨S_, .i32⟩
  | .hbm, ⟨65, _⟩ => ⟨S8192x1, .i32⟩
  | .hbm, ⟨66, _⟩ => ⟨S8192x1, .i32⟩
  | .hbm, ⟨67, _⟩ => ⟨S8192x1, .i32⟩
  | .hbm, ⟨68, _⟩ => ⟨S8192x1x1, .i32⟩
  | .hbm, ⟨69, _⟩ => ⟨S1, .i32⟩
  | .hbm, ⟨70, _⟩ => ⟨S_, .i32⟩
  | .hbm, ⟨71, _⟩ => ⟨S8192x1x1, .i32⟩
  | .hbm, ⟨72, _⟩ => ⟨S8192x1x1, .i1⟩
  | .hbm, ⟨73, _⟩ => ⟨S1x1x1, .i32⟩
  | .hbm, ⟨74, _⟩ => ⟨S8192x1x1, .i32⟩
  | .hbm, ⟨75, _⟩ => ⟨S8192x1x1, .i1⟩
  | .hbm, ⟨76, _⟩ => ⟨S8192x1x1, .i1⟩
  | .hbm, ⟨77, _⟩ => ⟨S_, .i1⟩
  | .hbm, ⟨78, _⟩ => ⟨S8192x1, .i1⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call3_cst : Ref sig .tc := ⟨.hbm, 45, rfl⟩
abbrev main_call3_v0 : Ref sig .tc := ⟨.hbm, 46, rfl⟩
abbrev main_call3_cst_0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_v6 : Ref sig .tc := ⟨.hbm, 53, rfl⟩
abbrev main_call3_cst_1 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_v25 : Ref sig .tc := ⟨.hbm, 59, rfl⟩
abbrev main_v26 : Ref sig .tc := ⟨.hbm, 60, rfl⟩
abbrev main_call4_c : Ref sig .tc := ⟨.hbm, 61, rfl⟩
abbrev main_call4_v0 : Ref sig .tc := ⟨.hbm, 62, rfl⟩
abbrev main_call4_v1 : Ref sig .tc := ⟨.hbm, 63, rfl⟩
abbrev main_call4_c_0 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_v5 : Ref sig .tc := ⟨.hbm, 68, rfl⟩
abbrev main_call4_c_1 : Ref sig .tc := ⟨.hbm, 69, rfl⟩
abbrev main_call4_c_2 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_3 : Ref sig .tc := ⟨.hbm, 77, rfl⟩
abbrev main_call4_v12 : Ref sig .tc := ⟨.hbm, 78, rfl⟩
abbrev main_call4_v13 : Ref sig .tc := ⟨.hbm, 79, rfl⟩
abbrev main_call4_cst : Ref sig .tc := ⟨.hbm, 80, rfl⟩
abbrev main_call4_v14 : Ref sig .tc := ⟨.hbm, 81, rfl⟩
abbrev main_v27 : Ref sig .tc := ⟨.hbm, 82, rfl⟩
abbrev main_cst_4 : Ref sig .tc := ⟨.hbm, 83, rfl⟩
abbrev main_v28 : Ref sig .tc := ⟨.hbm, 84, rfl⟩
abbrev main_cst_5 : Ref sig .tc := ⟨.hbm, 85, rfl⟩
abbrev main_v29 : Ref sig .tc := ⟨.hbm, 86, rfl⟩
abbrev main_v30 : Ref sig .tc := ⟨.hbm, 87, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  concatenates_S8192x8192_S8192x8192_S8192x16384_d1 : Shape.Concatenates [S8192x8192, S8192x8192] S8192x16384 1
  reducesTo_S8192x16384_S8192_d1 : S8192x16384.ReducesTo [1] S8192
  bcast_S_S8192 : S_.BroadcastsInDim S8192 (![] : Fin 0 → Fin S8192.rank)
  bcast_S8192x1_S8192x16384_0_1 : S8192x1.BroadcastsInDim S8192x16384 (![0, 1] : Fin 2 → Fin S8192x16384.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x128_S128x8192_S8192x8192_1_0_0_1_n_n_wf : DotDims.WF S8192x128 S128x8192 S8192x8192 [1] [0] [0] [1] [] []
  gather_S8192x16384_S8192x1x1_S8192x1_n_1_0_0_1_2_11_wf : GatherDims.WF S8192x16384 S8192x1x1 S8192x1 [] [1] [0] [1] [0] 2 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x16384_S8192x1x1_S8192x1_n_1_0_0_1_2_11 : GatherDims S8192x16384 S8192x1x1 S8192x1 where
  offsetDims := []
  collapsedSliceDims := [1]
  operandBatchingDims := [0]
  startIndicesBatchingDims := [0]
  startIndexMap := [1]
  indexVectorDim := 2
  sliceSizes := ![1, 1]
  wf := gather_S8192x16384_S8192x1x1_S8192x1_n_1_0_0_1_2_11_wf

class Facts : Prop extends Facts₀ where

variable [Facts]
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.Spec.lean ====
/-
  The two losses as functions of three arrays of extended reals, index by index.

  For an array `x` of 8192 rows of 128 entries, `unitRow x r k` is entry `k` of row `r` divided by
  `max (√(∑ₖ x r k · x r k)) ε`: the row scaled to unit length, the divisor clamped below by `ε`. `cosSim a b i j` is the
  inner product of row `i` of `a` and row `j` of `b` so scaled.

  One program scales every similarity by a constant `c`, shifts by the same `c` under the exponential, and forms, per row `i`,
      c + log (∑ⱼ exp (c·s⁺ᵢⱼ − c) + ∑ⱼ exp (c·s⁻ᵢⱼ − c)) − c·s⁺ᵢᵢ          (`kRow`),
  where s⁺ = cosSim z zp and s⁻ = cosSim z zn; its result is the mean of the rows (`kLoss`).
  The other divides every similarity by `τ`, lays the two families side by side as one row of 16384 logits, shifts by the row's
  maximum `M` and forms  (ℓᵢᵢ − M) − log ∑ⱼ exp (ℓᵢⱼ − M)  (`rRow`); its result is minus the mean (`rLoss`).
  With `c = 1/τ` and finite entries both are  log ∑ⱼ exp ℓᵢⱼ − ℓᵢᵢ  averaged over the rows.
-/
import Idealize.ShloMosaic.PureOps.Ideal
import Idealize.ShloMosaic.PureOps.Ideal.Laws
import Idealize.ShloMosaic.Lib.ValueIdx

noncomputable section

namespace Cert.Contrastive

open Idealize.ShloMosaic Idealize.ShloMosaic.ValueIdx
open scoped BigOperators

/-- An array of 8192 rows of 128 extended reals. -/
abbrev Mat : Type := (⟨2, ![8192, 128]⟩ : Shape).Idx → EReal

/-- The lower clamp of a row's length: the value the 32-bit pattern `0x322BCC77` denotes (about 1e-8). -/
def eps : EReal := Ideal.ofBits .f32 0x322BCC77#32
/-- The temperature `τ`: the value the 32-bit pattern `0x3D4CCCCD` denotes, 13421773 / 2^28. -/
def tau : EReal := Ideal.ofBits .f32 0x3D4CCCCD#32
/-- Its exact reciprocal. -/
def invTau : EReal := ((268435456 / 13421773 : ℝ) : EReal)
/-- The number of rows, as the 32-bit pattern `0x46000000` denotes it: 8192. -/
def nRows : EReal := Ideal.ofBits .f32 0x46000000#32

/-- The clamped Euclidean length of row `r`. -/
def rowNorm (x : Mat) (r : Fin 8192) : EReal :=
  max (Ideal.sqrt (∑ k : Fin 128, x (ix2 r k) * x (ix2 r k))) eps

/-- Entry `k` of row `r` scaled by the row's clamped length. -/
def unitRow (x : Mat) (r : Fin 8192) (k : Fin 128) : EReal := Ideal.div (x (ix2 r k)) (rowNorm x r)

/-- The inner product of scaled row `i` of `a` and scaled row `j` of `b`. -/
def cosSim (a b : Mat) (i j : Fin 8192) : EReal := ∑ k : Fin 128, unitRow a i k * unitRow b j k

/-- Row `i`'s term, scaled by `c = invTau` and shifted by `c`. -/
def kRow (z zp zn : Mat) (i : Fin 8192) : EReal :=
  (invTau + Ideal.log ((∑ j : Fin 8192, Ideal.exp (cosSim z zp i j * invTau - invTau))
      + (∑ j : Fin 8192, Ideal.exp (cosSim z zn i j * invTau - invTau))))
    - cosSim z zp i i * invTau

/-- The mean of the rows' terms. -/
def kLoss (z zp zn : Mat) : EReal := Ideal.div (∑ i : Fin 8192, kRow z zp zn i) nRows

/-- Row `i`'s 16384 logits: the similarities to `zp`'s rows, then those to `zn`'s, each divided by `τ`. -/
def logit (z zp zn : Mat) (i : Fin 8192) (j : Fin 16384) : EReal :=
  if h : j.val < 8192 then Ideal.div (cosSim z zp i ⟨j.val, h⟩) tau
  else Ideal.div (cosSim z zn i ⟨j.val - 8192, by omega⟩) tau

/-- The row's largest logit (the fold of `max` from `-∞`). -/
def rowMax (z zp zn : Mat) (i : Fin 8192) : EReal :=
  (Finset.univ : Finset (Fin 16384)).fold max ⊥ (logit z zp zn i)

/-- Row `i`'s log-probability of column `i`, computed after the shift by the row's maximum. -/
def rRow (z zp zn : Mat) (i : Fin 8192) : EReal :=
  (logit z zp zn i ⟨i.val, by omega⟩ - rowMax z zp zn i)
    - Ideal.log (∑ j : Fin 16384, Ideal.exp (logit z zp zn i j - rowMax z zp zn i))

/-- Minus the mean of the rows' log-probabilities. -/
def rLoss (z zp zn : Mat) : EReal := -(Ideal.div (∑ i : Fin 8192, rRow z zp zn i) nRows)

end Cert.Contrastive

end
-- ==== Proof.RefValueLib.lean ====
/-
  Index-by-index readings of four array operations at this program's literal shapes, for any operand:
  the gather of one column per row, the reduce by `and` over a unit axis, the reduce by maximum over the columns,
  and the concatenation of two blocks of 8192 columns; and the signed reading of a small 32-bit word.
-/
import proofs.«102129_j79499844649266_2_alg».proof.Proof.Gen.ReferenceIdeal
import Idealize.ShloMosaic.Lib.Pipeline.Value
import Idealize.ShloMosaic.Lib.ValueIdx
import Idealize.ShloMosaic.Lib.ReduceAll
import Idealize.ShloMosaic.PureOps.Ideal.Laws

noncomputable section

namespace Cert.ReferenceIdeal.RefValue

open Cert.ReferenceIdeal Cert.ReferenceIdeal.Gen
open Idealize.ShloMosaic Idealize.ShloMosaic.ValueIdx
open scoped BigOperators

/-- The gather of one column per row: result element (i, 0) is the operand at row i, column the start index at (i, 0, 0)
    read signed and clamped into [0, 16383]. -/
theorem gather_row_apply {α : Type} {w : Nat} (x : S8192x16384.Idx → α) (idx : IVec S8192x1x1 w) (i : Fin 8192) :
    Host.gather gather_S8192x16384_S8192x1x1_S8192x1_n_1_0_0_1_2_11 x idx (ix2 i (0 : Fin 1))
      = x (ix2 i ⟨min (idx (ix3 i (0 : Fin 1) (0 : Fin 1))).toInt.toNat 16383, by omega⟩) := by
  unfold Host.gather
  congr 1
  funext a
  refine Fin.ext ?_
  show gather_S8192x16384_S8192x1x1_S8192x1_n_1_0_0_1_2_11.start (ix2 i (0 : Fin 1)) idx a + gather_S8192x16384_S8192x1x1_S8192x1_n_1_0_0_1_2_11.batchCoord (ix2 i (0 : Fin 1)) a + gather_S8192x16384_S8192x1x1_S8192x1_n_1_0_0_1_2_11.offCoord (ix2 i (0 : Fin 1)) a = _
  match a with
  | ⟨0, h0⟩ =>
    have hb : (⟨0, h0⟩ : Fin S8192x16384.rank) ∈ gather_S8192x16384_S8192x1x1_S8192x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, h1⟩ =>
    have hnb : (⟨1, h1⟩ : Fin S8192x16384.rank) ∉ gather_S8192x16384_S8192x1x1_S8192x1_n_1_0_0_1_2_11.operandBatchingDims :=
      fun h => Nat.one_ne_zero (congrArg Fin.val (List.mem_singleton.mp h))
    have hc : (⟨1, h1⟩ : Fin S8192x16384.rank) ∈ gather_S8192x16384_S8192x1x1_S8192x1_n_1_0_0_1_2_11.collapsedSliceDims :=
      List.mem_singleton.mpr rfl
    have hm : (⟨1, h1⟩ : Fin S8192x16384.rank) ∈ gather_S8192x16384_S8192x1x1_S8192x1_n_1_0_0_1_2_11.startIndexMap :=
      List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S8192x16384_S8192x1x1_S8192x1_n_1_0_0_1_2_11.siIdx (ix2 i (0 : Fin 1))
        ⟨List.idxOf (⟨1, h1⟩ : Fin S8192x16384.rank) gather_S8192x16384_S8192x1x1_S8192x1_n_1_0_0_1_2_11.startIndexMap,
          List.idxOf_lt_length_iff.2 hm⟩ = ix3 i (0 : Fin 1) (0 : Fin 1) := by
      funext b; refine Fin.ext ?_
      match b with
      | ⟨0, _⟩ => rfl
      | ⟨1, _⟩ => rfl
      | ⟨2, _⟩ => rfl
    rw [hsi]
    rfl

/-- A fold of the one-bit `and` from 1 over ones is 1. -/
theorem fold_andi_one {ι : Type} [DecidableEq ι] (s : Finset ι) :
    s.fold IntOp.andi 1#1 (fun _ => 1#1) = 1#1 := by
  induction s using Finset.induction_on with
  | empty => rfl
  | insert a s ha ih => rw [Finset.fold_insert ha, ih]; rfl

/-- The host's reduce by `and` from 1 over the last unit axis of an array of ones is 1. -/
theorem reduce_andi_ones (init : S_.Idx → BitVec 1) (hinit : init (Shape.Idx.first h_S_) = 1#1) (j : S8192x1.Idx) :
    Host.reduce IntOp.andi (fun _ : S8192x1x1.Idx => 1#1) init reducesTo_S8192x1x1_S8192x1_d2 h_S_ j = 1#1 := by
  rw [Host.reduce_eq_fold_single IntOp.andi _ _ reducesTo_S8192x1x1_S8192x1_d2 (by decide) h_S_, hinit]
  exact fold_andi_one _

/-- The reduced row index `i` with column `k` put back is (i, k). -/
theorem lift_row (h : S8192x16384.Reduces [1] S8192) (i : Fin 8192) (k : Fin (S8192x16384.size 1)) :
    h.lift (ix1 i) k = ix2 i (⟨k.val, k.isLt⟩ : Fin 16384) := by
  funext c; apply Fin.ext
  fin_cases c <;> rfl

/-- From −∞ the host's reduce by maximum over the columns, at row `i`, is the fold of `max` from ⊥ over the row. -/
theorem reduce_max_row (x : FVec Ideal S8192x16384 .f32) (init : FVec Ideal S_ .f32)
    (hinit : init (Shape.Idx.first h_S_) = ⊥) (i : Fin 8192) :
    Host.reduce FloatOps.maximumf x init reducesTo_S8192x16384_S8192_d1 h_S_ (ix1 i)
      = (Finset.univ : Finset (Fin 16384)).fold max ⊥ (fun k => x (ix2 i k)) := by
  rw [Host.reduce_eq_fold_single FloatOps.maximumf x _ reducesTo_S8192x16384_S8192_d1 (by decide) h_S_, hinit]
  have hf : (x ∘ (by decide : S8192x16384.Reduces [1] S8192).lift (ix1 i)) = fun k : Fin 16384 => x (ix2 i k) :=
    funext fun k => congrArg x (lift_row _ i k)
  exact congrArg (fun f => Finset.fold max (⊥ : EReal) f (Finset.univ : Finset (Fin 16384))) hf

theorem ofBits_neg_inf : Ideal.ofBits .f32 0xFF800000#32 = (⊥ : EReal) := by simp [Ideal.ofBits, Ideal.ieee]

/-- Two arrays of 8192 columns laid side by side, read at (i, j): the first at column j below 8192, else the second at j − 8192. -/
theorem concat_cols {α : Type} (a b : S8192x8192.Idx → α) (i : Fin 8192) (j : Fin 16384) :
    concatenate S8192x16384 1 [⟨S8192x8192, a⟩, ⟨S8192x8192, b⟩] concatenates_S8192x8192_S8192x8192_S8192x16384_d1 (ix2 i j)
      = if h : j.val < 8192 then a (ix2 i ⟨j.val, h⟩) else b (ix2 i ⟨j.val - 8192, by omega⟩) := by
  split
  · rename_i h
    exact concatenate_pair_apply_left 1 a b _ (ix2 i j) rfl (ix2 i ⟨j.val, h⟩)
      (fun c => match c with | ⟨0, _⟩ => rfl | ⟨1, _⟩ => rfl)
  · rename_i h
    exact concatenate_pair_apply_right 1 a b _ (ix2 i j) rfl rfl (ix2 i ⟨j.val - 8192, by omega⟩)
      (fun c => match c with | ⟨0, _⟩ => fun _ => rfl | ⟨1, _⟩ => fun hc => absurd rfl hc)
      (by show j.val - 8192 + 8192 = j.val; omega)

/-- The 32-bit word of a number below 2^31 reads signed as that number. -/
theorem toInt_ofNat_lt (n : Nat) (hn : n < 2147483648) : (BitVec.ofNat 32 n).toInt = (n : Int) := by
  rw [BitVec.toInt_eq_toNat_cond, BitVec.toNat_ofNat, Nat.mod_eq_of_lt (by omega)]
  rw [if_pos (by omega)]

/-- A row number is not negative as a signed word … -/
theorem slt_zero_small (n : Nat) (hn : n < 8192) : IntOp.cmpi .slt (BitVec.ofNat 32 n) 0#32 = 0#1 :=
  eq_zero_of_ne_one fun h => by
    have := IntOp.cmpi_slt.mp h
    rw [toInt_ofNat_lt n (by omega), toInt_ofNat_lt 0 (by omega)] at this
    omega

/-- … it is at least zero … -/
theorem sge_zero_small (n : Nat) (hn : n < 8192) : IntOp.cmpi .sge (BitVec.ofNat 32 n) 0#32 = 1#1 :=
  IntOp.cmpi_sge.mpr (by rw [toInt_ofNat_lt n (by omega), toInt_ofNat_lt 0 (by omega)]; omega)

/-- … and at most the last column's number. -/
theorem sle_last_small (n : Nat) (hn : n < 8192) : IntOp.cmpi .sle (BitVec.ofNat 32 n) 16383#32 = 1#1 :=
  IntOp.cmpi_sle.mpr (by rw [toInt_ofNat_lt n (by omega), toInt_ofNat_lt 16383 (by omega)]; omega)

/-- Read signed and clamped into the columns, a row number is itself. -/
theorem clamp_small (n : Nat) (hn : n < 8192) : min (BitVec.ofNat 32 n).toInt.toNat 16383 = n := by
  rw [toInt_ofNat_lt n (by omega), Int.toNat_natCast]
  omega

end Cert.ReferenceIdeal.RefValue

end
-- ==== Proof.RefValueSim.lean ====
/-
  The reference's first stages read index by index: each array's rows divided by their clamped lengths (`unitRow`),
  and the product of the first array's scaled rows with another's, transposed (`cosSim`).
-/
import proofs.«102129_j79499844649266_2_alg».proof.Proof.RefReadP
import proofs.«102129_j79499844649266_2_alg».proof.Proof.Spec

noncomputable section

namespace Cert.ReferenceIdeal.RefValue

open Cert.ReferenceIdeal Cert.ReferenceIdeal.Gen Cert.ReferenceIdeal.ReadP Cert.Contrastive
open Idealize.ShloMosaic Idealize.ShloMosaic.ValueIdx
open scoped BigOperators

/-- The second array passes through the same operations as the first. -/
theorem v9_eq_v4 : @val_main_v9 Ideal _ = @val_main_v4 Ideal _ := rfl

/-- The row-sum's operand index at row r is (r, k'). -/
theorem idx_norm (r : Fin 8192) (k k' : Fin 128) :
    idx_main_call0_v1 (idx_main_call0_v2 (idx_main_v3 (ix2 r k))) k' = ix2 r k' :=
  funext fun a => Fin.ext (by match a with | ⟨0, _⟩ => rfl | ⟨1, _⟩ => rfl)

/-- A row divided by its clamped length, entry by entry. -/
theorem unit_apply (x : Mat) (r : Fin 8192) (k : Fin 128) :
    val_main_v4 (F := Ideal) x (ix2 r k) = unitRow x r k := by
  rw [val_main_v4_apply, val_main_v3_apply, val_main_v2_apply, val_main_v0_apply, val_main_v1_apply, val_main_cst_apply,
    val_main_call0_v2_apply, val_main_call0_v1_apply, val_main_call0_cst_apply]
  simp only [val_main_call0_v0_apply, idx_norm, Ideal.hostDivf_def, Ideal.maximumf_def, Ideal.hostUnary_sqrt_def, Ideal.mulf_def,
    Ideal.ofBits_def, Ideal.ofBits_zero_f32, zero_add]
  rfl

/-- The product's left operand index at (i, j) is (i, k) … -/
theorem lidx_sim (i j : Fin 8192) (k : Fin 128) : lidx_main_v11 (ix2 i j) k = ix2 i k :=
  funext fun a => Fin.ext (by match a with | ⟨0, _⟩ => rfl | ⟨1, _⟩ => rfl)
/-- … and its right operand, a transpose, reads the untransposed array at (j, k). -/
theorem ridx_sim (i j : Fin 8192) (k : Fin 128) : idx_main_v10 (ridx_main_v11 (ix2 i j) k) = ix2 j k :=
  funext fun a => Fin.ext (by match a with | ⟨0, _⟩ => rfl | ⟨1, _⟩ => rfl)

/-- The product of the scaled rows of `a` with the transposed scaled rows of `b`, at (i, j), is the similarity. -/
theorem sim_apply (a b : Mat) (i j : Fin 8192) : val_main_v11 (F := Ideal) a b (ix2 i j) = cosSim a b i j := by
  rw [val_main_v11_apply]
  simp only [val_main_v10_apply, lidx_sim, ridx_sim, v9_eq_v4, unit_apply]
  rfl

end Cert.ReferenceIdeal.RefValue

end
-- ==== Proof.RefValueLogits.lean ====
/-
  The similarities divided by the temperature and the two families laid side by side: the row's 16384 logits (`logit`).
-/
import proofs.«102129_j79499844649266_2_alg».proof.Proof.RefReadP
import proofs.«102129_j79499844649266_2_alg».proof.Proof.Spec
import proofs.«102129_j79499844649266_2_alg».proof.Proof.RefValueLib
import proofs.«102129_j79499844649266_2_alg».proof.Proof.RefValueSim

noncomputable section

namespace Cert.ReferenceIdeal.RefValue

open Cert.ReferenceIdeal Cert.ReferenceIdeal.Gen Cert.ReferenceIdeal.ReadP Cert.Contrastive
open Idealize.ShloMosaic Idealize.ShloMosaic.ValueIdx
open scoped BigOperators

/-- Divided by the temperature. -/
theorem scaled_apply (a b : Mat) (i j : Fin 8192) :
    val_main_v13 (F := Ideal) a b (ix2 i j) = Ideal.div (cosSim a b i j) tau := by
  rw [val_main_v13_apply, val_main_v12_apply, val_main_cst_1_apply, sim_apply]
  rfl

/-- The third array's similarities pass through the same operations as the second's. -/
theorem v22_eq_v13 : @val_main_v22 Ideal _ = @val_main_v13 Ideal _ := rfl

/-- The two families side by side are the row's logits. -/
theorem logits_apply (x0 x1 x2 : Mat) (i : Fin 8192) (j : Fin 16384) :
    val_main_v23 (F := Ideal) x0 x1 x2 (ix2 i j) = logit x0 x1 x2 i j := by
  unfold val_main_v23 logit
  rw [concat_cols, v22_eq_v13]
  simp only [scaled_apply]

end Cert.ReferenceIdeal.RefValue

end
-- ==== Proof.RefValueSoftmax.lean ====
/-
  The log-softmax of the logits read index by index: the row maximum is a fold of `max` from −∞ (`rowMax`); every entry is
  the logit minus that maximum, minus the logarithm of the row's sum of exponentials of the shifted logits.
-/
import proofs.«102129_j79499844649266_2_alg».proof.Proof.RefReadP
import proofs.«102129_j79499844649266_2_alg».proof.Proof.Spec
import proofs.«102129_j79499844649266_2_alg».proof.Proof.RefValueLib
import proofs.«102129_j79499844649266_2_alg».proof.Proof.RefValueLogits

noncomputable section

namespace Cert.ReferenceIdeal.RefValue

open Cert.ReferenceIdeal Cert.ReferenceIdeal.Gen Cert.ReferenceIdeal.ReadP Cert.Contrastive
open Idealize.ShloMosaic Idealize.ShloMosaic.ValueIdx
open scoped BigOperators

/-- The row's largest logit: the host's reduce by maximum from −∞. -/
theorem rowmax_apply (x0 x1 x2 : Mat) (i : Fin 8192) :
    val_main_call3_v0 (F := Ideal) x0 x1 x2 (ix1 i) = rowMax x0 x1 x2 i := by
  unfold val_main_call3_v0 rowMax
  rw [reduce_max_row (val_main_v23 (F := Ideal) x0 x1 x2) (val_main_call3_cst (F := Ideal))
    ((val_main_call3_cst_apply _).trans ofBits_neg_inf) i]
  exact congrArg (fun f => Finset.fold max (⊥ : EReal) f (Finset.univ : Finset (Fin 16384)))
    (funext fun k => logits_apply x0 x1 x2 i k)

/-- The broadcast of the row maxima reads row i's at every (i, j). -/
theorem idx_max (i : Fin 8192) (j : Fin 16384) : idx_main_call3_v3 (idx_main_call3_v4 (ix2 i j)) = ix1 i :=
  funext fun a => Fin.ext (by match a with | ⟨0, _⟩ => rfl)

/-- The logits shifted by their row's maximum. -/
theorem shifted_apply (x0 x1 x2 : Mat) (i : Fin 8192) (j : Fin 16384) :
    val_main_call3_v5 (F := Ideal) x0 x1 x2 (ix2 i j) = logit x0 x1 x2 i j - rowMax x0 x1 x2 i := by
  rw [val_main_call3_v5_apply, val_main_call3_v4_apply, val_main_call3_v3_apply, val_main_call3_v2_apply,
    val_main_call3_v1_apply, val_main_call3_cst_0_apply, idx_max, rowmax_apply, logits_apply]
  simp only [Ideal.subf_def, Ideal.maximumf_def, Ideal.ofBits_def, ofBits_neg_inf, bot_le, max_eq_right]

/-- The row sum's operand index at row i is (i, k). -/
theorem idx_sum (i : Fin 8192) (j k : Fin 16384) :
    idx_main_call3_v7 (idx_main_call3_v8 (idx_main_call3_v10 (ix2 i j))) k = ix2 i k :=
  funext fun a => Fin.ext (by match a with | ⟨0, _⟩ => rfl | ⟨1, _⟩ => rfl)

/-- The log-probabilities, computed after the shift by the row's maximum. -/
theorem logsoftmax_apply (x0 x1 x2 : Mat) (i : Fin 8192) (j : Fin 16384) :
    val_main_v25 (F := Ideal) x0 x1 x2 (ix2 i j)
      = (logit x0 x1 x2 i j - rowMax x0 x1 x2 i)
        - Ideal.log (∑ j' : Fin 16384, Ideal.exp (logit x0 x1 x2 i j' - rowMax x0 x1 x2 i)) := by
  rw [val_main_v25_apply, val_main_call3_v10_apply, val_main_call3_v9_apply, val_main_call3_v8_apply,
    val_main_call3_v7_apply, val_main_call3_cst_1_apply, shifted_apply]
  simp only [val_main_call3_v6_apply, idx_sum, shifted_apply, Ideal.subf_def, Ideal.hostUnary_exp_def, Ideal.hostUnary_log_def,
    Ideal.ofBits_def, Ideal.ofBits_zero_f32, zero_add]

end Cert.ReferenceIdeal.RefValue

end
-- ==== Proof.RefValueGather.lean ====
/-
  The entry the reference takes from each row of log-probabilities. The column indices are the row numbers (an iota), all
  within the columns' range: the shift applied to negative indices leaves them unchanged, the in-range mask is all ones,
  the gather reads column i of row i, and the final select keeps the gathered value (`rRow`).
-/
import proofs.«102129_j79499844649266_2_alg».proof.Proof.RefReadP
import proofs.«102129_j79499844649266_2_alg».proof.Proof.Spec
import proofs.«102129_j79499844649266_2_alg».proof.Proof.RefValueLib
import proofs.«102129_j79499844649266_2_alg».proof.Proof.RefValueSoftmax

noncomputable section

namespace Cert.ReferenceIdeal.RefValue

open Cert.ReferenceIdeal Cert.ReferenceIdeal.Gen Cert.ReferenceIdeal.ReadP Cert.Contrastive
open Idealize.ShloMosaic Idealize.ShloMosaic.ValueIdx
open scoped BigOperators

/-- The start indices: at (r, ·, ·) the row number r (an iota, never negative, so the shift of negative indices keeps it). -/
theorem labels_apply (j : S8192x1x1.Idx) : val_main_call4_v5 (F := Ideal) j = BitVec.ofNat 32 (j 0).val := by
  have h0 : (j 0).val < 8192 := (j 0).isLt
  have h1 : (j 1).val < 1 := (j 1).isLt
  have h2 : (j 2).val < 1 := (j 2).isLt
  have e : ((idx_main_v26 (idx_main_call4_v5 j)) 0).val = (j 0).val := by
    show (((j 0).val * 1 + (j 1).val) * 1 + (j 2).val) / 1 = (j 0).val
    omega
  rw [val_main_call4_v5_apply, val_main_call4_v4_apply, val_main_call4_v1_apply, val_main_v26_apply, val_main_v24_apply,
    val_main_call4_v0_apply, val_main_call4_c_apply, e, slt_zero_small _ h0, select_zero]

/-- Every start index lies in the columns' range: the mask's operand is all ones … -/
theorem inrange_apply (j : S8192x1x1.Idx) : val_main_call4_v11 (F := Ideal) j = 1#1 := by
  have h0 : (j 0).val < 8192 := (j 0).isLt
  rw [val_main_call4_v11_apply, val_main_call4_v7_apply, val_main_call4_v10_apply, labels_apply, val_main_call4_v6_apply,
    val_main_call4_c_2_apply, val_main_call4_v9_apply, val_main_call4_v8_apply, val_main_call4_c_1_apply,
    sge_zero_small _ h0, sle_last_small _ h0]
  rfl

/-- … and so is the mask. -/
theorem mask_apply (i : S8192x1.Idx) : val_main_call4_v12 (F := Ideal) i = 1#1 := by
  unfold val_main_call4_v12
  rw [show val_main_call4_v11 (F := Ideal) = fun _ => 1#1 from funext inrange_apply]
  exact reduce_andi_ones _ (val_main_call4_c_3_apply _) i

/-- The gather's element (i, 0), given the column `c` its start index denotes once read signed and clamped. -/
theorem gather_row_apply_of {α : Type} {w : Nat} (x : S8192x16384.Idx → α) (idx : IVec S8192x1x1 w) (i : Fin 8192)
    (c : Fin 16384) (hc : min (idx (ix3 i (0 : Fin 1) (0 : Fin 1))).toInt.toNat 16383 = c.val) :
    Host.gather gather_S8192x16384_S8192x1x1_S8192x1_n_1_0_0_1_2_11 x idx (ix2 i (0 : Fin 1)) = x (ix2 i c) :=
  (gather_row_apply x idx i).trans (congrArg x (congrArg (ix2 i) (Fin.ext hc)))

/-- The entry taken from row i is the log-probability of column i. -/
theorem take_apply (x0 x1 x2 : Mat) (i : Fin 8192) :
    val_main_v27 (F := Ideal) x0 x1 x2 (ix2 i (0 : Fin 1)) = rRow x0 x1 x2 i := by
  rw [val_main_v27_apply, mask_apply, select_one]
  unfold val_main_call4_v13
  rw [gather_row_apply_of _ _ i (⟨i.val, by omega⟩ : Fin 16384)
    (by rw [labels_apply]; exact clamp_small i.val i.isLt), logsoftmax_apply]
  rfl

end Cert.ReferenceIdeal.RefValue

end
-- ==== Proof.RefValue.lean ====
/-
  The reference's value: the sum of the rows' taken log-probabilities (from zero), divided by the number of rows, negated
  (`rLoss`).
-/
import proofs.«102129_j79499844649266_2_alg».proof.Proof.RefReadP
import proofs.«102129_j79499844649266_2_alg».proof.Proof.Spec
import proofs.«102129_j79499844649266_2_alg».proof.Proof.RefValueGather

noncomputable section

namespace Cert.ReferenceIdeal.RefValue

open Cert.ReferenceIdeal Cert.ReferenceIdeal.Gen Cert.ReferenceIdeal.ReadP Cert.Contrastive
open Idealize.ShloMosaic Idealize.ShloMosaic.ValueIdx
open scoped BigOperators

/-- The reference's result: minus the mean of the rows' log-probabilities. -/
theorem result_eq (x0 x1 x2 : Mat) :
    val_main_v30 (F := Ideal) x0 x1 x2 = fun _ => rLoss x0 x1 x2 := by
  funext j
  rw [val_main_v30_apply, val_main_v29_apply, val_main_v28_apply, val_main_cst_4_apply, val_main_cst_5_apply, sum_idx2]
  simp only [Fin.sum_univ_one, take_apply, Ideal.hostNegf_def, Ideal.negf_def, Ideal.hostDivf_def, Ideal.ofBits_def,
    Ideal.ofBits_zero_f32, zero_add]
  rfl

end Cert.ReferenceIdeal.RefValue

end
-- ==== Proof.KRun.lean ====
/-
  The idealized kernel program's run, with its result buffer named.

  The program is two kernel regions followed by two host operations (a sum of the [8192,1] array the second region
  writes, and a division). Its buffers' contents are followed segment by segment: `Gen.W1` after the first region,
  `Gen.W2` after the second, `Gen.W3 = StableHlo.after hostOps2 (W2 …)` after the host operations. Every weakly fair
  execution terminates with every unscoped buffer at `W3`; read at the result buffer and at the three arguments this
  is the statement below: the result is `W3` at `main_v3`, the arguments are as launched.
-/
import proofs.«102129_j79499844649266_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the three argument arrays as launched. -/
theorem run_v3 : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.KValue

end
-- ==== Proof.Region1Piece.lean ====
/-
  What the second kernel region's body leaves in its output block, as one pure term.

  At a grid point the body loads its 256 rows of `z` (`x0`), the two whole arrays of unit rows (`x1`, `x2`) and,
  once more from the first of these, the 256 rows that start at row `256 · (the point's coordinate)`; it stores one
  value over the whole [256, 1] output block. Read back, that block is the stored value: the generated payloads
  composed, applied to the loaded contents.
-/
import proofs.«102129_j79499844649266_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz2 : (![0, 0] : Fin 2 → Nat) = fun _ => 0 := funext fun a => by fin_cases a <;> rfl

/-- The 256 rows of the whole array `x1` that the point with coordinates `i` loads a second time. -/
abbrev rowsAt (i : grid1.Coords) (x1 : Vec Ideal S8192x128 .bf16) : Vec Ideal S256x128 .bf16 :=
  View.ld x1 (Rect.unit (s := S8192x128) (k1_off1 i) S256x128.size (k1_off1_inb i))

/-- The output block after the body at a point: the payloads of the loaded contents. -/
theorem out1_eq (c : Dev nD) (i : grid1.Coords) (arg1 : Memref sig .tc .vmem S256x128 .f32) (harg1 : arg1.IsWhole) (arg2 : Memref sig .tc .vmem S8192x128 .bf16) (harg2 : arg2.IsWhole) (arg3 : Memref sig .tc .vmem S8192x128 .bf16) (harg3 : arg3.IsWhole) (arg4 : Memref sig .tc .vmem S256x1 .f32) (harg4 : arg4.IsWhole)
    (x0 : Vec Ideal S256x128 .f32) (x1 : Vec Ideal S8192x128 .bf16) (x2 : Vec Ideal S8192x128 .bf16) :
    out1_A_3 (F := Ideal) c i arg1 harg1 arg2 harg2 arg3 harg3 arg4 harg4 x0 x1 x2
      = k1_pay1 (F := Ideal) (k1_pay4 x0 x1) (k1_pay5 x0 (rowsAt i x1)) (k1_pay6 x0 x2) := by
  unfold out1_A_3
  rw [View.read_writes_eq_canon _ _ _ (cover1_A_3 c i arg1 harg1 arg2 harg2 arg3 harg3 arg4 harg4 x0 x1 x2)]
  unfold kernelRun1_A
  dsimp only
  sl_unfold_words
  rw [View.canon_unit_zero hz2]
  simp only [View.readAt_eq_ld, harg1.read_unread, harg2.read_unread, harg3.read_unread,
    View.ld_unit_zero (S := S256x128) hz2, View.ld_unit_zero (S := S8192x128) hz2]
  rfl

end Cert.KernelIdeal.KValue

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Region1Payload.lean ====
/-
  The second kernel region's stored value, read at a row.

  For a block `x0` of 256 rows, `tileUnit x0 p k` is entry `k` of row `p` divided by the row's Euclidean length clamped
  below by `ε`. With `x1`, `x2` two arrays of 8192 rows, `sl` a block of 256 rows and `c` the named constant, the value
  stored for row `p` is
      (c + log (∑ⱼ exp ((∑ₖ u p k · x1 j k) · c − c) + ∑ⱼ exp ((∑ₖ u p k · x2 j k) · c − c))) − (∑ₖ u p k · sl p k) · c,
  with `u = tileUnit x0`: each lane sum is a sum over the reduced axis, each matrix product a sum over the shared axis
  of length 128, the casts to and from a column and the changes of float format the identity on values.
-/
import proofs.«102129_j79499844649266_2_alg».proof.Proof.Gen.KernelIdeal.Skeleton
import proofs.«102129_j79499844649266_2_alg».proof.Proof.Gen.KernelIdeal
import proofs.«102129_j79499844649266_2_alg».proof.Proof.LibColumnLayout
import proofs.«102129_j79499844649266_2_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.KValue

open Cert.KernelIdeal Cert.KernelIdeal.Gen Cert.Contrastive Cert.ColumnLayout
open Idealize.ShloMosaic Idealize.ShloMosaic.ValueIdx
open scoped BigOperators

/-- A lane sum over the second axis of an [A, B] array, from a zero accumulator, at row `r`: the sum of the row. -/
theorem rowSum_apply {A B : ℕ} (v : FVec Ideal ⟨2, ![A, B]⟩ .f32) (h : (⟨2, ![A, B]⟩ : Shape).Reduces [1] ⟨1, ![A]⟩)
    (hφ : FKind.Formats .f32) (hacc : (0x00000000#32 : BitVec 32) = 0x00000000#32) (r : Fin A) :
    multiReduction .add [1] ⟨1, ![A]⟩ v 0x00000000#32 h hφ hacc (ix1 r) = ∑ k : Fin B, v (ix2 r k) :=
  (Ideal.multiReduction_add_single v 0x00000000#32 h hφ hacc (ix1 r)).trans
    (Finset.sum_congr rfl fun k _ => congrArg v (funext fun a => Fin.ext (by
      match a with
      | ⟨0, _⟩ => rfl
      | ⟨1, _⟩ => rfl)))

/-- The matrix product's dimension record: [256,128] × [8192,128] → [256,8192], both operands contracted on their second axis. -/
abbrev DK : DotDims S256x128 S8192x128 S256x8192 := dot_S256x128_S8192x128_S256x8192_1_1_0_0_n_n

theorem lhsK_0 (i : S256x8192.Idx) (q : DK.contr.Idx) : (DK.lhsIdx i q 0).val = (i 0).val := by
  unfold DotDims.lhsIdx
  rw [dif_neg (show ¬(0 : Fin S256x128.rank) ∈ DK.lhsBatch by decide), dif_pos (show (0 : Fin S256x128.rank) ∈ DK.lhsNonContracting by decide)]
  rfl
theorem lhsK_1 (i : S256x8192.Idx) (q : DK.contr.Idx) : (DK.lhsIdx i q 1).val = (q ⟨0, by decide⟩).val :=
  DK.lhsIdx_val_of_single rfl i q
theorem rhsK_0 (i : S256x8192.Idx) (q : DK.contr.Idx) : (DK.rhsIdx i q 0).val = (i 1).val := by
  unfold DotDims.rhsIdx
  rw [dif_neg (show ¬(0 : Fin S8192x128.rank) ∈ DK.rhsBatch by decide), dif_pos (show (0 : Fin S8192x128.rank) ∈ DK.rhsNonContracting by decide)]
  rfl
theorem rhsK_1 (i : S256x8192.Idx) (q : DK.contr.Idx) : (DK.rhsIdx i q 1).val = (q ⟨0, by decide⟩).val :=
  DK.rhsIdx_val_of_single rfl i q

/-- The product into a zero accumulator at `(p, j)`: the inner product of row `p` of the left operand and row `j` of the right. -/
theorem matmulK_apply (l : FVec Ideal S256x128 .bf16) (r : FVec Ideal S8192x128 .bf16) (p : Fin 256) (j : Fin 8192) :
    matmul DK none l r (constant (F := Ideal) S256x8192 .f32 0x00000000#32) (ix2 p j) = ∑ k : Fin 128, l (ix2 p k) * r (ix2 j k) := by
  simp only [matmul]
  rw [Ideal.matmul_constant_zero_apply, ← Equiv.sum_comp (contrEquiv1 DK 128 rfl rfl).symm]
  refine Finset.sum_congr rfl fun k _ => ?_
  have hk := contrEquiv1_symm_val DK 128 rfl rfl k
  have el : DK.lhsIdx (ix2 p j) ((contrEquiv1 DK 128 rfl rfl).symm k) = ix2 p k := funext fun a => Fin.ext (by
    match a with
    | ⟨0, _⟩ => exact lhsK_0 _ _
    | ⟨1, _⟩ => exact (lhsK_1 _ _).trans hk)
  have er : DK.rhsIdx (ix2 p j) ((contrEquiv1 DK 128 rfl rfl).symm k) = ix2 j k := funext fun a => Fin.ext (by
    match a with
    | ⟨0, _⟩ => exact rhsK_0 _ _
    | ⟨1, _⟩ => exact (rhsK_1 _ _).trans hk)
  rw [el, er]

/-- The named constant denotes the exact reciprocal of the temperature. -/
theorem named_invTau : Named.named (F := Ideal) κ "inv_taf" (φ := .f32) 0x41A00000#32 = invTau :=
  IdealRules.named_const.ideal_named_scalar _ _ _ _ rfl

/-- Entry `k` of row `p` of a 256-row block, scaled by the row's clamped length. -/
def tileUnit (x0 : Vec Ideal S256x128 .f32) (p : Fin 256) (k : Fin 128) : EReal :=
  Ideal.div (x0 (ix2 p k)) (max (Ideal.sqrt (∑ k' : Fin 128, x0 (ix2 p k') * x0 (ix2 p k'))) eps)

theorem pay2_apply (x0 : Vec Ideal S256x128 .f32) (p : Fin 256) (k : Fin 128) :
    k1_pay2 (F := Ideal) x0 (ix2 p k) = tileUnit x0 p k := by
  unfold k1_pay2 tileUnit
  show Ideal.div (x0 (ix2 p k)) (broadcastTo S256x128 _ broadcasts_S256x1_S256x128 (ix2 p k)) = _
  rw [broadcastTo_a1_ab_apply]
  show Ideal.div (x0 (ix2 p k)) (max (Ideal.sqrt (shapeCast S256x1 _ shapeCasts_S256_S256x1 (ix2 p (0 : Fin 1)))) _) = _
  rw [shapeCast_a_a1_apply, rowSum_apply]
  rfl

/-- The similarity of row `p` of the block to row `j` of an array of unit rows. -/
def tileSim (x0 : Vec Ideal S256x128 .f32) (y : Vec Ideal S8192x128 .bf16) (p : Fin 256) (j : Fin 8192) : EReal :=
  ∑ k : Fin 128, tileUnit x0 p k * y (ix2 j k)

theorem pay6_apply (x0 : Vec Ideal S256x128 .f32) (x2 : Vec Ideal S8192x128 .bf16) (p : Fin 256) (j : Fin 8192) :
    k1_pay6 (F := Ideal) x0 x2 (ix2 p j) = Ideal.exp (tileSim x0 x2 p j * invTau - invTau) := by
  unfold k1_pay6 tileSim
  show Ideal.exp (matmul DK none (k1_pay3 x0) (shapeCast S8192x128 x2 shapeCasts_S8192x128_S8192x128) (constant (F := Ideal) S256x8192 .f32 0x00000000#32) (ix2 p j)
      * Named.named (F := Ideal) κ "inv_taf" (φ := .f32) 0x41A00000#32 - Named.named (F := Ideal) κ "inv_taf" (φ := .f32) 0x41A00000#32) = _
  rw [matmulK_apply, named_invTau, shapeCast_self]
  refine congrArg (fun s => Ideal.exp (s * invTau - invTau)) (Finset.sum_congr rfl fun k _ => ?_)
  exact congrArg (· * x2 (ix2 j k)) (pay2_apply x0 p k)

theorem pay4_apply (x0 : Vec Ideal S256x128 .f32) (x1 : Vec Ideal S8192x128 .bf16) (p : Fin 256) :
    k1_pay4 (F := Ideal) x0 x1 (ix2 p (0 : Fin 1)) = ∑ j : Fin 8192, Ideal.exp (tileSim x0 x1 p j * invTau - invTau) := by
  unfold k1_pay4
  show shapeCast S256x1 _ shapeCasts_S256_S256x1 (ix2 p (0 : Fin 1)) = _
  rw [shapeCast_a_a1_apply, rowSum_apply]
  refine Finset.sum_congr rfl fun j _ => ?_
  exact pay6_apply x0 x1 p j

theorem pay5_apply (x0 : Vec Ideal S256x128 .f32) (sl : Vec Ideal S256x128 .bf16) (p : Fin 256) :
    k1_pay5 (F := Ideal) x0 sl (ix2 p (0 : Fin 1)) = (∑ k : Fin 128, tileUnit x0 p k * sl (ix2 p k)) * invTau := by
  unfold k1_pay5
  show shapeCast S256x1 _ shapeCasts_S256_S256x1 (ix2 p (0 : Fin 1)) * Named.named (F := Ideal) κ "inv_taf" (φ := .f32) 0x41A00000#32 = _
  rw [shapeCast_a_a1_apply, rowSum_apply, named_invTau]
  refine congrArg (· * invTau) (Finset.sum_congr rfl fun k _ => ?_)
  show k1_pay2 (F := Ideal) x0 (ix2 p k) * shapeCast S256x128 sl shapeCasts_S256x128_S256x128 (ix2 p k) = _
  rw [pay2_apply, shapeCast_self]

/-- The stored value for row `p`. -/
def tileRow (x0 : Vec Ideal S256x128 .f32) (x1 x2 : Vec Ideal S8192x128 .bf16) (sl : Vec Ideal S256x128 .bf16) (p : Fin 256) : EReal :=
  (invTau + Ideal.log ((∑ j : Fin 8192, Ideal.exp (tileSim x0 x1 p j * invTau - invTau))
      + (∑ j : Fin 8192, Ideal.exp (tileSim x0 x2 p j * invTau - invTau))))
    - (∑ k : Fin 128, tileUnit x0 p k * sl (ix2 p k)) * invTau

theorem pay1_apply (x0 : Vec Ideal S256x128 .f32) (x1 x2 : Vec Ideal S8192x128 .bf16) (sl : Vec Ideal S256x128 .bf16) (p : Fin 256) :
    k1_pay1 (F := Ideal) (k1_pay4 x0 x1) (k1_pay5 x0 sl) (k1_pay6 x0 x2) (ix2 p (0 : Fin 1)) = tileRow x0 x1 x2 sl p := by
  unfold k1_pay1 tileRow
  show (Named.named (F := Ideal) κ "inv_taf" (φ := .f32) 0x41A00000#32
        + Ideal.log (k1_pay4 (F := Ideal) x0 x1 (ix2 p (0 : Fin 1)) + shapeCast S256x1 _ shapeCasts_S256_S256x1 (ix2 p (0 : Fin 1))))
      - k1_pay5 (F := Ideal) x0 sl (ix2 p (0 : Fin 1)) = _
  rw [shapeCast_a_a1_apply, rowSum_apply, named_invTau, pay4_apply, pay5_apply]
  refine congrArg (fun s => (invTau + Ideal.log ((∑ j : Fin 8192, Ideal.exp (tileSim x0 x1 p j * invTau - invTau)) + s)) - (∑ k : Fin 128, tileUnit x0 p k * sl (ix2 p k)) * invTau) ?_
  exact Finset.sum_congr rfl fun j _ => pay6_apply x0 x2 p j

/-- When the block's row `p` is row `R` of `z`, the two arrays are the unit rows of `zp` and `zn`, and the reloaded rows'
    row `p` is unit row `R` of `zp`, the stored value for row `p` is the specification's term for row `R`. -/
theorem tileRow_eq_kRow (z zp zn : Mat) (R : Fin 8192) (x0 : Vec Ideal S256x128 .f32) (x1 x2 : Vec Ideal S8192x128 .bf16)
    (sl : Vec Ideal S256x128 .bf16) (p : Fin 256)
    (h0 : ∀ k : Fin 128, x0 (ix2 p k) = z (ix2 R k))
    (h1 : ∀ (j : Fin 8192) (k : Fin 128), x1 (ix2 j k) = unitRow zp j k)
    (h2 : ∀ (j : Fin 8192) (k : Fin 128), x2 (ix2 j k) = unitRow zn j k)
    (hs : ∀ k : Fin 128, sl (ix2 p k) = unitRow zp R k) :
    tileRow x0 x1 x2 sl p = kRow z zp zn R := by
  have hu : ∀ k : Fin 128, tileUnit x0 p k = unitRow z R k := by
    intro k
    unfold tileUnit unitRow rowNorm
    simp only [h0]
  unfold tileRow kRow cosSim tileSim
  simp only [hu, h1, h2, hs]

end Cert.KernelIdeal.KValue

end
-- ==== Proof.Region1Value.lean ====
/-
  The array the second kernel region leaves: one term per row.

  The region runs over 32 grid points. Point `t` reads rows `256·t … 256·t + 255` of `z` (its first window's block),
  the two whole arrays of unit rows (every point the same block), and, from the first of these, the 256 rows starting
  at row `256·t` once more; it writes rows `256·t … 256·t + 255` of the [8192, 1] output. So row `R = 256·t + p` of the
  output is the stored value for row `p` of point `t`, which is the specification's term for row `R`; the 32 blocks
  tile the output, so the whole array is that function of the row.
-/
import proofs.«102129_j79499844649266_2_alg».proof.Proof.Region1Piece
import proofs.«102129_j79499844649266_2_alg».proof.Proof.Region1Payload

set_option maxRecDepth 16384

noncomputable section

namespace Cert.KernelIdeal.KValue

open Cert.KernelIdeal Cert.KernelIdeal.Gen Cert.Contrastive
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps and the reloaded rows' offset, decided over the grid: window 0 and the output move with the
    point, the two resident windows stay at block (0, 0), the reloaded rows start at row `256·t`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ k1_off1 (grid1.coords t) (0 : Fin 2) = 256 * t.val ∧ k1_off1 (grid1.coords t) (1 : Fin 2) = 0 :=
  (by decide +kernel : ∀ t : Fin grid1.N, _)

/-- The specification's rows as an [8192, 1] array. -/
def rowsArr (z zp zn : Mat) : S8192x1.Idx → EReal := fun i => kRow z zp zn ⟨(i 0).val, idx2_lt0 i⟩

/-- An index of the output array is in point `t`'s block iff each coordinate is in the block's range on its axis. -/
theorem mem_blk3 (t : Fin cfg1.N) (i : S8192x1.Idx) :
    i ∈ ((cfg1.win 3).blk t).view.set ↔ ∀ a : Fin 2, win1_3.index t a * S256x1.size a ≤ (i a).val ∧ (i a).val < win1_3.index t a * S256x1.size a + S256x1.size a := by
  show i ∈ ((View.whole main_v1).slice (win1_3.rect t)).set ↔ _
  rw [View.set_slice_whole, Rect.mem_set_unit]
  exact Iff.rfl

/-- What point `t` writes back is block `t` of the specification's rows, when the region finds `z` in its first window's
    array and the unit rows of `zp`, `zn` in the other two. -/
theorem flushed1_eq (c : Dev nD) (z zp zn : Mat)
    (hz : ∀ (r : Fin 8192) (k : Fin 128), V c (Pipeline.arrRef spec1 0) (ix2 r k) = z (ix2 r k))
    (h1 : ∀ (j : Fin 8192) (k : Fin 128), V c (Pipeline.arrRef spec1 1) (ix2 j k) = unitRow zp j k)
    (h2 : ∀ (j : Fin 8192) (k : Fin 128), V c (Pipeline.arrRef spec1 2) (ix2 j k) = unitRow zn j k)
    (t : Fin cfg1.N) :
    (dat1 (F := Ideal) V c).flushed 3 t = ((cfg1.win 3).blk t).view.read (Elt Ideal) (rowsArr z zp zn) := by
  show (cfg1.win 3).cut (grid1.coords t) ((dat1 (F := Ideal) V c).after 3 t) = _
  rw [after1_3]
  unfold outsAt1
  rw [out1_eq]
  obtain ⟨e00, e01, e10, e11, e20, e21, e30, e31, eo0, eo1⟩ := idx_facts1 t
  have hN : cfg1.N = 32 := N_1
  have ht : t.val < 32 := hN ▸ t.isLt
  funext y
  obtain ⟨p, u, rfl⟩ : ∃ (p : Fin 256) (u : Fin 1), y = ix2 p u := ⟨y 0, y 1, eq_ix2 y⟩
  obtain rfl : u = 0 := Subsingleton.elim _ _
  have hp : p.val < 256 := p.isLt
  show k1_pay1 (F := Ideal) (k1_pay4 (iblk1 V c 0 t) (iblk1 V c 1 t)) (k1_pay5 (iblk1 V c 0 t) (rowsAt (grid1.coords t) (iblk1 V c 1 t))) (k1_pay6 (iblk1 V c 0 t) (iblk1 V c 2 t)) (ix2 p (0 : Fin 1))
      = rowsArr z zp zn (((cfg1.win 3).blk t).view.emb (ix2 p (0 : Fin 1)))
  rw [pay1_apply]
  have hR : 256 * t.val + p.val < 8192 := by omega
  refine (tileRow_eq_kRow z zp zn ⟨256 * t.val + p.val, hR⟩ _ _ _ _ p ?_ ?_ ?_ ?_).trans ?_
  · intro k
    show V c (Pipeline.arrRef spec1 0) (((cfg1.win 0).blk t).view.emb (ix2 p k)) = _
    refine (congrArg (V c (Pipeline.arrRef spec1 0)) ?_).trans (hz ⟨256 * t.val + p.val, hR⟩ k)
    funext a; apply Fin.ext
    match a with
    | ⟨0, _⟩ => show win1_0.index t (0 : Fin 2) * 256 + 1 * p.val = 256 * t.val + p.val; omega
    | ⟨1, _⟩ => show win1_0.index t (1 : Fin 2) * 128 + 1 * k.val = k.val; omega
  · intro j k
    show V c (Pipeline.arrRef spec1 1) (((cfg1.win 1).blk t).view.emb (ix2 j k)) = _
    refine (congrArg (V c (Pipeline.arrRef spec1 1)) ?_).trans (h1 j k)
    funext a; apply Fin.ext
    match a with
    | ⟨0, _⟩ => show win1_1.index t (0 : Fin 2) * 8192 + 1 * j.val = j.val; omega
    | ⟨1, _⟩ => show win1_1.index t (1 : Fin 2) * 128 + 1 * k.val = k.val; omega
  · intro j k
    show V c (Pipeline.arrRef spec1 2) (((cfg1.win 2).blk t).view.emb (ix2 j k)) = _
    refine (congrArg (V c (Pipeline.arrRef spec1 2)) ?_).trans (h2 j k)
    funext a; apply Fin.ext
    match a with
    | ⟨0, _⟩ => show win1_2.index t (0 : Fin 2) * 8192 + 1 * j.val = j.val; omega
    | ⟨1, _⟩ => show win1_2.index t (1 : Fin 2) * 128 + 1 * k.val = k.val; omega
  · intro k
    show V c (Pipeline.arrRef spec1 1) (((cfg1.win 1).blk t).view.emb
        ((Rect.unit (s := S8192x128) (k1_off1 (grid1.coords t)) S256x128.size (k1_off1_inb (grid1.coords t))).idx (ix2 p k))) = _
    refine (congrArg (V c (Pipeline.arrRef spec1 1)) ?_).trans (h1 ⟨256 * t.val + p.val, hR⟩ k)
    funext a; apply Fin.ext
    match a with
    | ⟨0, _⟩ => show win1_1.index t (0 : Fin 2) * 8192 + 1 * (k1_off1 (grid1.coords t) (0 : Fin 2) + 1 * p.val) = 256 * t.val + p.val; omega
    | ⟨1, _⟩ => show win1_1.index t (1 : Fin 2) * 128 + 1 * (k1_off1 (grid1.coords t) (1 : Fin 2) + 1 * k.val) = k.val; omega
  · unfold rowsArr
    refine congrArg (kRow z zp zn) (Fin.ext ?_)
    show 256 * t.val + p.val = win1_3.index t (0 : Fin 2) * 256 + 1 * p.val
    omega

/-- Every row of the output is in the block of the point `row / 256`. -/
theorem cover3 (i : S8192x1.Idx) : ∃ t : Fin cfg1.N, (cfg1.win 3).flush t = true ∧ i ∈ ((cfg1.win 3).blk t).view.set := by
  have hi0 : (i 0).val < 8192 := (i 0).isLt
  have hi1 : (i 1).val < 1 := (i 1).isLt
  have hN : cfg1.N = 32 := N_1
  refine ⟨⟨(i 0).val / 256, by rw [hN]; omega⟩, flush1_3 _, ?_⟩
  rw [mem_blk3]
  obtain ⟨-, -, -, -, -, -, e30, e31, -, -⟩ := idx_facts1 ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e30]; show (i 0).val / 256 * 256 ≤ (i 0).val ∧ (i 0).val < (i 0).val / 256 * 256 + 256; omega
  | ⟨1, _⟩ =>
    show win1_3.index _ (1 : Fin 2) * 1 ≤ (i 1).val ∧ (i 1).val < win1_3.index _ (1 : Fin 2) * 1 + 1
    rw [e31]; omega

/-- The output array after the region: the specification's rows. -/
theorem region1_out (c : Dev nD) (z zp zn : Mat)
    (hz : ∀ (r : Fin 8192) (k : Fin 128), V c (Pipeline.arrRef spec1 0) (ix2 r k) = z (ix2 r k))
    (h1 : ∀ (j : Fin 8192) (k : Fin 128), V c (Pipeline.arrRef spec1 1) (ix2 j k) = unitRow zp j k)
    (h2 : ∀ (j : Fin 8192) (k : Fin 128), V c (Pipeline.arrRef spec1 2) (ix2 j k) = unitRow zn j k) :
    (dat1 (F := Ideal) V c).arrAt 3 cfg1.N = rowsArr z zp zn :=
  (dat1 (F := Ideal) V c).arrAt_eq_of_cover 3 (rowsArr z zp zn) (fun t _ => flushed1_eq V c z zp zn hz h1 h2 t) cover3

end Cert.KernelIdeal.KValue

end
-- ==== Proof.Region0Pay.lean ====
/-
  What the first kernel computes from a whole [8192, 128] array, entry by entry.

  The body squares the entries, sums each row, takes the square root, clamps it below by ε, and divides every entry of the row by
  the result; the final change of format is the identity on extended reals. Read at row r and column k this is the entry divided by
  max (√(∑ₖ x r k · x r k)) ε: the row scaled to unit length, as the specification's `unitRow` states it. The row sum is a
  reduction over axis 1 read at one row; the column of row lengths [8192] → [8192, 1] and its repetition [8192, 1] → [8192, 128]
  read the same row's entry at every column.
-/
import proofs.«102129_j79499844649266_2_alg».proof.Proof.Spec
import proofs.«102129_j79499844649266_2_alg».proof.Proof.LibColumnLayout
import proofs.«102129_j79499844649266_2_alg».proof.Proof.Gen.KernelIdeal.Skeleton
import Idealize.ShloMosaic.PureOps.Ideal.Laws
import Idealize.ShloMosaic.Lib.ValueIdx

noncomputable section

namespace Cert.KernelIdeal.KValue.Region0

open Idealize.ShloMosaic Idealize.ShloMosaic.ValueIdx Cert.KernelIdeal
open scoped BigOperators

/-- The sum over axis 1 of an [8192, 128] array, read at row r, is the sum of the row's 128 entries. -/
theorem rowSum_apply (v : FVec Ideal S8192x128 .f32) (r : Fin 8192) :
    multiReduction (F := Ideal) .add [1] S8192 v 0x00000000#32 Gen.reduces_S8192x128_S8192 (.inl rfl) rfl (ix1 r)
      = ∑ k : Fin 128, v (ix2 r k) := by
  refine (Ideal.multiReduction_add_single v 0x00000000#32 Gen.reduces_S8192x128_S8192 (.inl rfl) rfl (ix1 r)).trans ?_
  show ∑ k : Fin 128, v (Gen.reduces_S8192x128_S8192.lift (ix1 r) k) = ∑ k : Fin 128, v (ix2 r k)
  refine Finset.sum_congr rfl fun k _ => congrArg v ?_
  funext c
  match c with
  | ⟨0, _⟩ => rfl
  | ⟨1, _⟩ => rfl

/-- The first stored value at (r, k): entry (r, k) of the loaded array scaled by its row's clamped length. -/
theorem pay1_apply (x0 : Vec Ideal S8192x128 .f32) (r : Fin 8192) (k : Fin 128) :
    Gen.k0_pay1 (F := Ideal) x0 (ix2 r k) = Cert.Contrastive.unitRow x0 r k := by
  unfold Gen.k0_pay1 Cert.Contrastive.unitRow Cert.Contrastive.rowNorm Cert.Contrastive.eps
  refine congrArg (Ideal.div (x0 (ix2 r k))) ?_
  refine (Cert.ColumnLayout.broadcastTo_a1_ab_apply _ _ r k).trans ?_
  refine congrArg (fun z => max (Ideal.sqrt z) (Ideal.ofBits .f32 0x322BCC77#32)) ?_
  refine (Cert.ColumnLayout.shapeCast_a_a1_apply _ _ r 0).trans ?_
  exact rowSum_apply _ r

/-- The second stored value at (r, k): the same function of the second loaded array. -/
theorem pay2_apply (x1 : Vec Ideal S8192x128 .f32) (r : Fin 8192) (k : Fin 128) :
    Gen.k0_pay2 (F := Ideal) x1 (ix2 r k) = Cert.Contrastive.unitRow x1 r k := by
  unfold Gen.k0_pay2 Cert.Contrastive.unitRow Cert.Contrastive.rowNorm Cert.Contrastive.eps
  refine congrArg (Ideal.div (x1 (ix2 r k))) ?_
  refine (Cert.ColumnLayout.broadcastTo_a1_ab_apply _ _ r k).trans ?_
  refine congrArg (fun z => max (Ideal.sqrt z) (Ideal.ofBits .f32 0x322BCC77#32)) ?_
  refine (Cert.ColumnLayout.shapeCast_a_a1_apply _ _ r 0).trans ?_
  exact rowSum_apply _ r

/-- The array of scaled rows, as a function of the index. -/
def unitRows (x : Cert.Contrastive.Mat) : S8192x128.Idx → EReal := fun i => Cert.Contrastive.unitRow x (i 0) (i 1)

/-- At the index built from row r and column k it is the scaled entry (r, k). -/
theorem unitRows_ix2 (x : Cert.Contrastive.Mat) (r : Fin 8192) (k : Fin 128) :
    unitRows x (ix2 r k) = Cert.Contrastive.unitRow x r k := rfl

/-- The first stored array is the array of scaled rows of the loaded one. -/
theorem pay1_eq (x0 : Vec Ideal S8192x128 .f32) : Gen.k0_pay1 (F := Ideal) x0 = unitRows x0 :=
  funext fun j => (congrArg (Gen.k0_pay1 (F := Ideal) x0) (eq_ix2 j)).trans (pay1_apply x0 (j 0) (j 1))

/-- The second stored array likewise. -/
theorem pay2_eq (x1 : Vec Ideal S8192x128 .f32) : Gen.k0_pay2 (F := Ideal) x1 = unitRows x1 :=
  funext fun j => (congrArg (Gen.k0_pay2 (F := Ideal) x1) (eq_ix2 j)).trans (pay2_apply x1 (j 0) (j 1))

end Cert.KernelIdeal.KValue.Region0

end
-- ==== Proof.Region0.lean ====
/-
  What the first region leaves in its two output arrays.

  The region's grid has one point, and each of its four windows' blocks is its whole [8192, 128] array: the block index is zero on
  both axes, so a block read through its window is the array itself, and the one write-back covers every index. The body stores,
  into each output window, the scaled rows of the corresponding input block; so each output array ends holding the scaled rows of
  the corresponding input array as the region found it.
-/
import proofs.«102129_j79499844649266_2_alg».proof.Proof.Region0Pay
import proofs.«102129_j79499844649266_2_alg».proof.Proof.Gen.KernelIdeal.Frame
import Idealize.ShloMosaic.Lib.Pipeline.Value

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace Region0

/-- The body's access offsets are zero on both axes. -/
theorem hz : (![0, 0] : Fin 2 → Nat) = fun _ => 0 := funext fun a => by fin_cases a <;> rfl

/-! ## Every window's block is its whole array -/

/-- The offsets of each window's block, at every point, are zero on both axes. -/
theorem off0 (t : Fin cfg0.N) : (fun a => win0_0.index t a * main_arg1.ty.shape.size a) = fun _ => 0 :=
  funext fun a => by
    have h : win0_0.index t a = 0 := by fin_cases a <;> rfl
    rw [h, Nat.zero_mul]
theorem off1 (t : Fin cfg0.N) : (fun a => win0_1.index t a * main_arg2.ty.shape.size a) = fun _ => 0 :=
  funext fun a => by
    have h : win0_1.index t a = 0 := by fin_cases a <;> rfl
    rw [h, Nat.zero_mul]
theorem off2 (t : Fin cfg0.N) : (fun a => win0_2.index t a * main_v0_0.ty.shape.size a) = fun _ => 0 :=
  funext fun a => by
    have h : win0_2.index t a = 0 := by fin_cases a <;> rfl
    rw [h, Nat.zero_mul]
theorem off3 (t : Fin cfg0.N) : (fun a => win0_3.index t a * main_v0_1.ty.shape.size a) = fun _ => 0 :=
  funext fun a => by
    have h : win0_3.index t a = 0 := by fin_cases a <;> rfl
    rw [h, Nat.zero_mul]

/-- Input window 0's block at any point is the first input array as the region finds it. -/
theorem iblk0_0_eq (c : Dev nD) (t : Fin cfg0.N) :
    (iblk0 V c 0 t : S8192x128.Idx → EReal) = V c (Pipeline.arrRef spec0 0) := by
  unfold iblk0
  exact Memref.read_access_unit_zero (Elt Ideal) main_arg1 (off0 t) (fun a => by rw [congrFun (off0 t) a]; simp) _

/-- Input window 1's block at any point is the second input array as the region finds it. -/
theorem iblk0_1_eq (c : Dev nD) (t : Fin cfg0.N) :
    (iblk0 V c 1 t : S8192x128.Idx → EReal) = V c (Pipeline.arrRef spec0 1) := by
  unfold iblk0
  exact Memref.read_access_unit_zero (Elt Ideal) main_arg2 (off1 t) (fun a => by rw [congrFun (off1 t) a]; simp) _

/-! ## What the one point writes back -/

/-- Output window 2's write-back is the block of the scaled rows of the first input array. -/
theorem flushed2_eq (c : Dev nD) (t : Fin cfg0.N) :
    (dat0 (F := Ideal) V c).flushed 2 t
      = ((cfg0.win 2).blk t).view.read (Elt Ideal) (unitRows (V c (Pipeline.arrRef spec0 0))) := by
  show (cfg0.win 2).cut (grid0.coords t) ((dat0 V c).after 2 t) = _
  rw [after0_2]
  unfold out0_2
  rw [View.canon_unit_zero hz]
  simp only [View.ld_unit_zero (S := S8192x128) hz]
  rw [iblk0_0_eq, pay1_eq]
  exact (Memref.read_access_unit_zero (Elt Ideal) main_v0_0 (off2 t) (fun a => by rw [congrFun (off2 t) a]; simp) _).symm

/-- Output window 3's write-back is the block of the scaled rows of the second input array. -/
theorem flushed3_eq (c : Dev nD) (t : Fin cfg0.N) :
    (dat0 (F := Ideal) V c).flushed 3 t
      = ((cfg0.win 3).blk t).view.read (Elt Ideal) (unitRows (V c (Pipeline.arrRef spec0 1))) := by
  show (cfg0.win 3).cut (grid0.coords t) ((dat0 V c).after 3 t) = _
  rw [after0_3]
  unfold out0_3
  rw [View.canon_unit_zero hz]
  simp only [View.ld_unit_zero (S := S8192x128) hz]
  rw [iblk0_1_eq, pay2_eq]
  exact (Memref.read_access_unit_zero (Elt Ideal) main_v0_1 (off3 t) (fun a => by rw [congrFun (off3 t) a]; simp) _).symm

/-! ## The arrays after the region -/

/-- The first output array ends holding the scaled rows of the first input array. -/
theorem out2_eq (c : Dev nD) :
    (dat0 (F := Ideal) V c).arrAt 2 cfg0.N = unitRows (V c (Pipeline.arrRef spec0 0)) :=
  (dat0 (F := Ideal) V c).arrAt_eq_of_cover 2 (unitRows (V c (Pipeline.arrRef spec0 0))) (fun t _ => flushed2_eq V c t) fun i =>
    ⟨t0_0, flush0_2 t0_0, by
      show i ∈ ((View.whole main_v0_0).slice (win0_2.rect t0_0)).set
      rw [View.set_slice_whole]
      exact View.mem_set_unit_zero (off2 t0_0) _ i⟩

/-- The second output array ends holding the scaled rows of the second input array. -/
theorem out3_eq (c : Dev nD) :
    (dat0 (F := Ideal) V c).arrAt 3 cfg0.N = unitRows (V c (Pipeline.arrRef spec0 1)) :=
  (dat0 (F := Ideal) V c).arrAt_eq_of_cover 3 (unitRows (V c (Pipeline.arrRef spec0 1))) (fun t _ => flushed3_eq V c t) fun i =>
    ⟨t0_0, flush0_3 t0_0, by
      show i ∈ ((View.whole main_v0_1).slice (win0_3.rect t0_0)).set
      rw [View.set_slice_whole]
      exact View.mem_set_unit_zero (off3 t0_0) _ i⟩

end Region0

/-- Entry (r, k) of the first output array after the region: entry (r, k) of the first input array scaled by its row's clamped length. -/
theorem region0_out2 (c : Dev nD) (r : Fin 8192) (k : Fin 128) :
    (Gen.dat0 (F := Ideal) V c).arrAt 2 cfg0.N (ix2 r k) = Cert.Contrastive.unitRow (V c (Pipeline.arrRef spec0 0)) r k :=
  (congrFun (Region0.out2_eq V c) (ix2 r k)).trans (Region0.unitRows_ix2 _ r k)

/-- Entry (r, k) of the second output array after the region: entry (r, k) of the second input array scaled by its row's clamped length. -/
theorem region0_out3 (c : Dev nD) (r : Fin 8192) (k : Fin 128) :
    (Gen.dat0 (F := Ideal) V c).arrAt 3 cfg0.N (ix2 r k) = Cert.Contrastive.unitRow (V c (Pipeline.arrRef spec0 1)) r k :=
  (congrFun (Region0.out3_eq V c) (ix2 r k)).trans (Region0.unitRows_ix2 _ r k)

end Cert.KernelIdeal.KValue

end
-- ==== Proof.KTail.lean ====
/-
  The idealized kernel program's result as a function of its three argument arrays.

  The program's last two host operations add up the [8192, 1] array the second region leaves and divide by 8192. That
  array is the specification's rows of `z` (argument 0) against the unit rows of `zp`, `zn` (arguments 1, 2), which are
  what the first region leaves in the two arrays the second region reads; the first region reads arguments 1 and 2
  as launched, and the second reads argument 0 as launched. A sum over the index set of an [8192, 1] array is the sum
  over its 8192 rows.
-/
import proofs.«102129_j79499844649266_2_alg».proof.Proof.Region1Value
import proofs.«102129_j79499844649266_2_alg».proof.Proof.Region0

set_option maxRecDepth 16384

noncomputable section

namespace Cert.KernelIdeal.KValue

open Cert.KernelIdeal Cert.KernelIdeal.Gen Cert.Contrastive
open Idealize.ShloMosaic Idealize.ShloMosaic.TcCoe Idealize.ShloMosaic.Tactic Idealize.ShloMosaic.ValueIdx
open Idealize.SL.Sem
open scoped BigOperators

/-- The host's sum of an [8192, 1] array over both axes, from zero: the sum of its 8192 rows. -/
theorem total_sum (f : S8192x1.Idx → EReal) (j : S_.Idx) :
    Host.reduceAdd (F := Ideal) f (constant (F := Ideal) S_ .f32 0x00000000#32) reducesTo_S8192x1_S_d0_1 h_S_ j
      = ∑ r : Fin 8192, f (ix2 r (0 : Fin 1)) := by
  simp only [Host.reduceAdd, Ideal.hostReduceAdd_def]
  refine (Ideal.hostReduceAdd_total reducesTo_S8192x1_S_d0_1 (fun b => b.elim0) f _ j).trans ?_
  show Ideal.ofBits .f32 0x00000000#32 + ∑ i : S8192x1.Idx, f i = _
  rw [Ideal.ofBits_zero_f32, zero_add, sum_idx2]
  exact Finset.sum_congr rfl fun r _ => Fin.sum_univ_one _

variable (m : (ℓ : Loc nD τ sig) → Buf (Elt Ideal) ℓ) (ρ : Dev nD → PrngReg)

/-- The result buffer's last contents: the mean of the specification's rows of the launch contents of the arguments. -/
theorem kernel_value (c : Dev nD) :
    W3 (F := Ideal) m ρ c (Proc.devRef .tc main_v3)
      = fun _ => kLoss (m ((c.tc : Thread nD τ).loc main_arg0)) (m ((c.tc : Thread nD τ).loc main_arg1)) (m ((c.tc : Thread nD τ).loc main_arg2)) := by
  have hz : ∀ (r : Fin 8192) (k : Fin 128), V1 (F := Ideal) m ρ c (Pipeline.arrRef spec1 0) (ix2 r k)
      = (m ((c.tc : Thread nD τ).loc main_arg0) : Mat) (ix2 r k) := fun r k =>
    congrFun (W1_of_ne (F := Ideal) m ρ c main_arg0 (by decide)) (ix2 r k)
  have h1 : ∀ (j : Fin 8192) (k : Fin 128), V1 (F := Ideal) m ρ c (Pipeline.arrRef spec1 1) (ix2 j k)
      = unitRow (m ((c.tc : Thread nD τ).loc main_arg1)) j k := fun j k =>
    (congrFun (W1_arr (F := Ideal) m ρ c 2) (ix2 j k)).trans (region0_out2 (V0 (F := Ideal) m ρ) c j k)
  have h2 : ∀ (j : Fin 8192) (k : Fin 128), V1 (F := Ideal) m ρ c (Pipeline.arrRef spec1 2) (ix2 j k)
      = unitRow (m ((c.tc : Thread nD τ).loc main_arg2)) j k := fun j k =>
    (congrFun (W1_arr (F := Ideal) m ρ c 3) (ix2 j k)).trans (region0_out3 (V0 (F := Ideal) m ρ) c j k)
  have hW2 : W2 (F := Ideal) m ρ c (Proc.devRef .tc main_v1)
      = rowsArr (m ((c.tc : Thread nD τ).loc main_arg0)) (m ((c.tc : Thread nD τ).loc main_arg1)) (m ((c.tc : Thread nD τ).loc main_arg2)) :=
    (W2_arr (F := Ideal) m ρ c 3).trans (region1_out (V1 (F := Ideal) m ρ) c _ _ _ hz h1 h2)
  show StableHlo.after hostOps2 (W2 (F := Ideal) m ρ c) (Proc.devRef .tc main_v3) = _
  after_results
  rw [hW2]
  funext j
  show Ideal.div (Host.reduceAdd (F := Ideal) (rowsArr _ _ _) (constant (F := Ideal) S_ .f32 0x00000000#32) reducesTo_S8192x1_S_d0_1 h_S_ j)
      (Ideal.ofBits .f32 0x46000000#32) = _
  rw [total_sum]
  rfl

end Cert.KernelIdeal.KValue

end
-- ==== Proof.AlgebraConsts.lean ====
/-
  The four constants of the specification as coerced reals: the clamp is a positive real, the temperature is
  13421773 / 2^28, the row count is 8192.
-/
import proofs.«102129_j79499844649266_2_alg».proof.Proof.Spec

noncomputable section

namespace Cert.Contrastive

open Idealize.ShloMosaic

/-- The real value of the clamp: 11258999 · 2^(-50). -/
def epsR : ℝ := 11258999 * (2 : ℝ) ^ (-50 : ℤ)

theorem epsR_pos : 0 < epsR := by
  unfold epsR
  positivity

/-- The clamp is that real. -/
theorem eps_coe : eps = (epsR : EReal) := by
  unfold eps epsR
  simp [Ideal.ofBits, Ideal.ieee, -EReal.coe_mul]

/-- The temperature is the real 13421773 / 268435456. -/
theorem tau_eq : tau = ((13421773 / 268435456 : ℝ) : EReal) := by
  unfold tau
  simp [Ideal.ofBits, Ideal.ieee, -EReal.coe_mul]
  norm_num

/-- The row count is the real 8192. -/
theorem nRows_eq : nRows = ((8192 : ℝ) : EReal) := by
  unfold nRows
  simp [Ideal.ofBits, Ideal.ieee, -EReal.coe_mul]
  norm_num

end Cert.Contrastive

end
-- ==== Proof.AlgebraReal.lean ====
/-
  Facts about finite sums of reals seen inside the extended reals, and the two log-sum-exp identities over the reals.
  Everything here is over an arbitrary finite index type.
-/
import Idealize.ShloMosaic.PureOps.Ideal

noncomputable section

namespace Cert.Contrastive

open Idealize.ShloMosaic
open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

/-- The fold of max from -∞ over finitely many coerced reals is a coerced real, unless the set is empty. -/
theorem fold_max_coe_or {ι : Type*} (s : Finset ι) (f : ι → ℝ) :
    s = ∅ ∨ ∃ M : ℝ, s.fold max (⊥ : EReal) (fun i => (f i : EReal)) = (M : EReal) := by
  classical
  refine Finset.induction_on s ?_ ?_
  · left
    rfl
  · intro a s ha ih
    right
    rw [Finset.fold_insert ha]
    rcases ih with h | ⟨M, h⟩
    · refine ⟨f a, ?_⟩
      rw [h, Finset.fold_empty]
      exact max_eq_left bot_le
    · exact ⟨max (f a) M, by rw [h, coe_max]⟩

/-- Over a nonempty finite set it is a coerced real. -/
theorem fold_max_coe {ι : Type*} (s : Finset ι) (hs : s.Nonempty) (f : ι → ℝ) :
    ∃ M : ℝ, s.fold max (⊥ : EReal) (fun i => (f i : EReal)) = (M : EReal) := by
  rcases fold_max_coe_or s f with h | h
  · exact absurd h hs.ne_empty
  · exact h

/-- Shifting every exponent by M scales the sum of exponentials by exp (-M). -/
theorem shift_sum {ι : Type*} [Fintype ι] (u : ι → ℝ) (M : ℝ) :
    ∑ j, Real.exp (u j - M) = (∑ j, Real.exp (u j)) * Real.exp (-M) := by
  rw [Finset.sum_mul]
  refine Finset.sum_congr rfl fun j _ => ?_
  rw [sub_eq_add_neg, Real.exp_add]

/-- A sum of exponentials over a nonempty finite type is positive. -/
theorem sum_exp_pos {ι : Type*} [Fintype ι] [Nonempty ι] (u : ι → ℝ) : 0 < ∑ j, Real.exp (u j) :=
  Finset.sum_pos (fun j _ => Real.exp_pos _) Finset.univ_nonempty

/-- The shifted log-probability is the unshifted one. -/
theorem rRow_real {ι : Type*} [Fintype ι] [Nonempty ι] (l : ι → ℝ) (M l0 : ℝ) :
    (l0 - M) - Real.log (∑ j, Real.exp (l j - M)) = l0 - Real.log (∑ j, Real.exp (l j)) := by
  rw [shift_sum, Real.log_mul (sum_exp_pos l).ne' (Real.exp_pos _).ne', Real.log_exp]
  ring

/-- The shifted two-family log-sum-exp is the unshifted one. -/
theorem kRow_real {ι : Type*} [Fintype ι] [Nonempty ι] (u v : ι → ℝ) (c t : ℝ) :
    c + Real.log ((∑ j, Real.exp (u j - c)) + (∑ j, Real.exp (v j - c))) - t
      = Real.log ((∑ j, Real.exp (u j)) + (∑ j, Real.exp (v j))) - t := by
  rw [shift_sum, shift_sum, ← add_mul,
    Real.log_mul (add_pos (sum_exp_pos u) (sum_exp_pos v)).ne' (Real.exp_pos _).ne', Real.log_exp]
  ring

/-- A sum over Fin (n + n) of a function given by one family on the first half and another on the second. -/
theorem sum_two_halves {n N : ℕ} (hN : N = n + n) (f g : Fin n → ℝ) (F : Fin N → ℝ)
    (hF1 : ∀ j : Fin n, F ⟨j.val, by omega⟩ = f j)
    (hF2 : ∀ j : Fin n, F ⟨n + j.val, by omega⟩ = g j) :
    ∑ j, F j = (∑ j, f j) + (∑ j, g j) := by
  subst hN
  rw [Fin.sum_univ_add]
  congr 1
  · exact Finset.sum_congr rfl fun j _ => hF1 j
  · exact Finset.sum_congr rfl fun j _ => hF2 j

end Cert.Contrastive

end
-- ==== Proof.AlgebraLse.lean ====
/-
  The two row expressions over coerced reals: with every entry a real, each is the coercion of the real
  log-sum-exp expression, the shift gone.
-/
import proofs.«102129_j79499844649266_2_alg».proof.Proof.AlgebraReal

noncomputable section

namespace Cert.Contrastive

open Idealize.ShloMosaic
open scoped BigOperators

/-- The quotient of two coerced reals, the divisor nonzero, is the coerced real quotient. -/
theorem div_coe_coe (a b : ℝ) (hb : b ≠ 0) : Ideal.div (a : EReal) (b : EReal) = ((a / b : ℝ) : EReal) := by
  rw [Ideal.div_coe hb, ← EReal.coe_mul, mul_one_div]

/-- A sum of exponentials of shifted coerced reals is the coerced real sum. -/
theorem sum_exp_sub_coe {ι : Type*} [Fintype ι] (l : ι → ℝ) (M : ℝ) :
    (∑ j, Ideal.exp ((l j : EReal) - (M : EReal))) = ((∑ j, Real.exp (l j - M) : ℝ) : EReal) := by
  rw [coe_sum]
  refine Finset.sum_congr rfl fun j _ => ?_
  rw [← EReal.coe_sub, Ideal.exp_coe]

/-- The same with each exponent a product with the scale c before the shift by c. -/
theorem sum_exp_mul_sub_coe {ι : Type*} [Fintype ι] (p : ι → ℝ) (c : ℝ) :
    (∑ j, Ideal.exp ((p j : EReal) * (c : EReal) - (c : EReal))) = ((∑ j, Real.exp (p j * c - c) : ℝ) : EReal) := by
  rw [coe_sum]
  refine Finset.sum_congr rfl fun j _ => ?_
  rw [← EReal.coe_mul, ← EReal.coe_sub, Ideal.exp_coe]

/-- The scaled-and-shifted row term over coerced reals. -/
theorem kRow_coe {ι : Type*} [Fintype ι] [Nonempty ι] (p n : ι → ℝ) (c t : ℝ) :
    ((c : EReal) + Ideal.log ((∑ j, Ideal.exp ((p j : EReal) * (c : EReal) - (c : EReal)))
        + (∑ j, Ideal.exp ((n j : EReal) * (c : EReal) - (c : EReal))))) - (t : EReal) * (c : EReal)
      = ((Real.log ((∑ j, Real.exp (p j * c)) + (∑ j, Real.exp (n j * c))) - t * c : ℝ) : EReal) := by
  have hpos : 0 < (∑ j, Real.exp (p j * c - c)) + (∑ j, Real.exp (n j * c - c)) :=
    add_pos (sum_exp_pos fun j => p j * c - c) (sum_exp_pos fun j => n j * c - c)
  rw [sum_exp_mul_sub_coe, sum_exp_mul_sub_coe, ← EReal.coe_add, Ideal.log_coe, if_neg (not_le.mpr hpos),
    ← EReal.coe_add, ← EReal.coe_mul, ← EReal.coe_sub]
  exact congrArg (fun r : ℝ => (r : EReal)) (kRow_real (fun j => p j * c) (fun j => n j * c) c (t * c))

/-- The max-shifted row term over coerced reals. -/
theorem rRow_coe {ι : Type*} [Fintype ι] [Nonempty ι] (l : ι → ℝ) (M l0 : ℝ) :
    ((l0 : EReal) - (M : EReal)) - Ideal.log (∑ j, Ideal.exp ((l j : EReal) - (M : EReal)))
      = ((l0 - Real.log (∑ j, Real.exp (l j)) : ℝ) : EReal) := by
  have hpos : 0 < ∑ j, Real.exp (l j - M) := sum_exp_pos fun j => l j - M
  rw [sum_exp_sub_coe, Ideal.log_coe, if_neg (not_le.mpr hpos), ← EReal.coe_sub, ← EReal.coe_sub]
  exact congrArg (fun r : ℝ => (r : EReal)) (rRow_real l M l0)

end Cert.Contrastive

end
-- ==== Proof.AlgebraRows.lean ====
/-
  With real entries the clamped row length is a positive real, the scaled entries are reals, and so is every
  similarity: the coercion moves outward through each definition of the specification.
-/
import proofs.«102129_j79499844649266_2_alg».proof.Proof.AlgebraConsts
import proofs.«102129_j79499844649266_2_alg».proof.Proof.AlgebraLse

noncomputable section

namespace Cert.Contrastive

open Idealize.ShloMosaic Idealize.ShloMosaic.ValueIdx
open scoped BigOperators

/-- An array of 8192 rows of 128 reals. -/
abbrev MatR : Type := (⟨2, ![8192, 128]⟩ : Shape).Idx → ℝ

/-- The clamped Euclidean length of a real row. -/
def rowNormR (x : MatR) (r : Fin 8192) : ℝ :=
  max (Real.sqrt (∑ k : Fin 128, x (ix2 r k) * x (ix2 r k))) epsR

theorem rowNormR_pos (x : MatR) (r : Fin 8192) : 0 < rowNormR x r :=
  lt_max_of_lt_right epsR_pos

/-- A real row's scaled entry. -/
def unitRowR (x : MatR) (r : Fin 8192) (k : Fin 128) : ℝ := x (ix2 r k) / rowNormR x r

/-- The real similarity. -/
def cosSimR (a b : MatR) (i j : Fin 8192) : ℝ := ∑ k : Fin 128, unitRowR a i k * unitRowR b j k

theorem rowNorm_coe (x : Mat) (xr : MatR) (hx : ∀ i, x i = (xr i : EReal)) (r : Fin 8192) :
    rowNorm x r = (rowNormR xr r : EReal) := by
  have h : (∑ k : Fin 128, x (ix2 r k) * x (ix2 r k))
      = ((∑ k : Fin 128, xr (ix2 r k) * xr (ix2 r k) : ℝ) : EReal) := by
    rw [coe_sum]
    refine Finset.sum_congr rfl fun k _ => ?_
    rw [hx, EReal.coe_mul]
  unfold rowNorm rowNormR
  rw [h, Ideal.sqrt_coe, if_neg (not_lt.mpr (Finset.sum_nonneg fun k _ => mul_self_nonneg _)), eps_coe, coe_max]

theorem unitRow_coe (x : Mat) (xr : MatR) (hx : ∀ i, x i = (xr i : EReal)) (r : Fin 8192) (k : Fin 128) :
    unitRow x r k = (unitRowR xr r k : EReal) := by
  unfold unitRow unitRowR
  rw [rowNorm_coe x xr hx, hx, div_coe_coe _ _ (rowNormR_pos xr r).ne']

theorem cosSim_coe (a b : Mat) (ar br : MatR) (ha : ∀ i, a i = (ar i : EReal)) (hb : ∀ i, b i = (br i : EReal))
    (i j : Fin 8192) : cosSim a b i j = (cosSimR ar br i j : EReal) := by
  unfold cosSim cosSimR
  rw [coe_sum]
  refine Finset.sum_congr rfl fun k _ => ?_
  rw [unitRow_coe a ar ha, unitRow_coe b br hb, EReal.coe_mul]

end Cert.Contrastive

end
-- ==== Proof.Algebra.lean ====
/-
  The two losses agree on arrays of reals. With c the reciprocal of the temperature, both are the mean over the
  rows of  log (∑ⱼ exp (c·s⁺ᵢⱼ) + ∑ⱼ exp (c·s⁻ᵢⱼ)) − c·s⁺ᵢᵢ : one program shifts every exponent by c, the other by the
  row's largest logit, and either shift cancels against the logarithm.
-/
import proofs.«102129_j79499844649266_2_alg».proof.Proof.AlgebraRows

noncomputable section

namespace Cert.Contrastive

open Idealize.ShloMosaic Idealize.ShloMosaic.ValueIdx
open scoped BigOperators

/-- The reciprocal temperature as a real. -/
def cR : ℝ := 268435456 / 13421773

theorem invTau_coe : invTau = (cR : EReal) := rfl

/-- Dividing a real by the temperature multiplies it by the reciprocal. -/
theorem div_tau (x : ℝ) : Ideal.div (x : EReal) tau = ((x * cR : ℝ) : EReal) := by
  rw [tau_eq, div_coe_coe _ _ (by norm_num)]
  congr 1
  unfold cR
  ring

/-- A row's 16384 real logits from its two families of 8192 similarities. -/
def logitR (p n : Fin 8192 → ℝ) (j : Fin 16384) : ℝ :=
  if h : j.val < 8192 then p ⟨j.val, h⟩ * cR else n ⟨j.val - 8192, by omega⟩ * cR

theorem logitR_lo (p n : Fin 8192 → ℝ) (j : Fin 8192) (h : j.val < 16384) :
    logitR p n ⟨j.val, h⟩ = p j * cR := by
  unfold logitR
  rw [dif_pos (show (⟨j.val, h⟩ : Fin 16384).val < 8192 from j.isLt)]

theorem logitR_hi (p n : Fin 8192 → ℝ) (j : Fin 8192) (h : 8192 + j.val < 16384) :
    logitR p n ⟨8192 + j.val, h⟩ = n j * cR := by
  unfold logitR
  have hn : ¬ (⟨8192 + j.val, h⟩ : Fin 16384).val < 8192 := by
    show ¬ (8192 + j.val < 8192)
    omega
  rw [dif_neg hn]
  have hj : (⟨(⟨8192 + j.val, h⟩ : Fin 16384).val - 8192, by omega⟩ : Fin 8192) = j := by
    apply Fin.ext
    show 8192 + j.val - 8192 = j.val
    omega
  rw [hj]

/-- The sum of the exponentials of a row's logits is the sum over the first family plus the sum over the second. -/
theorem sum_exp_logitR (p n : Fin 8192 → ℝ) :
    ∑ j : Fin 16384, Real.exp (logitR p n j)
      = (∑ j : Fin 8192, Real.exp (p j * cR)) + (∑ j : Fin 8192, Real.exp (n j * cR)) :=
  sum_two_halves (n := 8192) (by norm_num) (fun j => Real.exp (p j * cR)) (fun j => Real.exp (n j * cR))
    (fun j => Real.exp (logitR p n j))
    (fun j => by show Real.exp (logitR p n ⟨j.val, _⟩) = _; rw [logitR_lo])
    (fun j => by show Real.exp (logitR p n ⟨8192 + j.val, _⟩) = _; rw [logitR_hi])

section rows

variable (z zp zn : Mat) (zr zpr znr : MatR)
  (hz : ∀ i, z i = (zr i : EReal)) (hzp : ∀ i, zp i = (zpr i : EReal)) (hzn : ∀ i, zn i = (znr i : EReal))

/-- The real value both row terms are built from. -/
def rowR (i : Fin 8192) : ℝ :=
  Real.log ((∑ j : Fin 8192, Real.exp (cosSimR zr zpr i j * cR)) + (∑ j : Fin 8192, Real.exp (cosSimR zr znr i j * cR)))
    - cosSimR zr zpr i i * cR

include hz hzp hzn

theorem kRow_eq (i : Fin 8192) : kRow z zp zn i = ((rowR zr zpr znr i : ℝ) : EReal) := by
  unfold kRow rowR
  simp only [cosSim_coe z zp zr zpr hz hzp, cosSim_coe z zn zr znr hz hzn, invTau_coe]
  exact kRow_coe (fun j => cosSimR zr zpr i j) (fun j => cosSimR zr znr i j) cR (cosSimR zr zpr i i)

theorem logit_coe (i : Fin 8192) (j : Fin 16384) :
    logit z zp zn i j = ((logitR (cosSimR zr zpr i) (cosSimR zr znr i) j : ℝ) : EReal) := by
  unfold logit logitR
  by_cases h : j.val < 8192
  · simp only [dif_pos h]
    rw [cosSim_coe z zp zr zpr hz hzp, div_tau]
  · simp only [dif_neg h]
    rw [cosSim_coe z zn zr znr hz hzn, div_tau]

theorem rowMax_coe (i : Fin 8192) : ∃ M : ℝ, rowMax z zp zn i = (M : EReal) := by
  unfold rowMax
  have hf : logit z zp zn i = fun j => ((logitR (cosSimR zr zpr i) (cosSimR zr znr i) j : ℝ) : EReal) :=
    funext (logit_coe z zp zn zr zpr znr hz hzp hzn i)
  rw [hf]
  exact fold_max_coe Finset.univ ⟨⟨0, by omega⟩, Finset.mem_univ _⟩ _

theorem rRow_eq (i : Fin 8192) : rRow z zp zn i = ((-(rowR zr zpr znr i) : ℝ) : EReal) := by
  obtain ⟨M, hM⟩ := rowMax_coe z zp zn zr zpr znr hz hzp hzn i
  unfold rRow rowR
  rw [hM]
  simp only [logit_coe z zp zn zr zpr znr hz hzp hzn]
  haveI : Nonempty (Fin 16384) := ⟨⟨0, by omega⟩⟩
  rw [rRow_coe (logitR (cosSimR zr zpr i) (cosSimR zr znr i)) M]
  rw [sum_exp_logitR]
  have h0 : logitR (cosSimR zr zpr i) (cosSimR zr znr i) ⟨i.val, by omega⟩ = cosSimR zr zpr i i * cR :=
    logitR_lo (cosSimR zr zpr i) (cosSimR zr znr i) i (by omega)
  have hlin : ∀ a b c : ℝ, a = c → a - b = -(b - c) := fun a b c h => by rw [h]; ring
  exact congrArg (fun r : ℝ => (r : EReal)) (hlin _ _ _ h0)

theorem kLoss_eq_rLoss_real : kLoss z zp zn = rLoss z zp zn := by
  unfold kLoss rLoss
  simp only [kRow_eq z zp zn zr zpr znr hz hzp hzn, rRow_eq z zp zn zr zpr znr hz hzp hzn]
  rw [← coe_sum, ← coe_sum, nRows_eq, div_coe_coe _ _ (by norm_num), div_coe_coe _ _ (by norm_num), ← EReal.coe_neg]
  congr 1
  rw [Finset.sum_neg_distrib, neg_div, neg_neg]

end rows

/-- On arrays whose every entry is a real the two losses are equal. -/
theorem kLoss_eq_rLoss (z zp zn : Mat)
    (hz : ∀ i, ∃ r : ℝ, z i = (r : EReal)) (hzp : ∀ i, ∃ r : ℝ, zp i = (r : EReal)) (hzn : ∀ i, ∃ r : ℝ, zn i = (r : EReal)) :
    kLoss z zp zn = rLoss z zp zn := by
  choose zr hzr using hz
  choose zpr hzpr using hzp
  choose znr hznr using hzn
  exact kLoss_eq_rLoss_real z zp zn zr zpr znr hzr hzpr hznr

end Cert.Contrastive

end
-- ==== Proof.Finite.lean ====
/-
  Finiteness of the inputs, read off the precondition.

  The precondition computes, for each of the three input arrays, the conjunction over all entries of
  "|x| < +∞" and joins the three by "and"; the claim supposes the result is the word 1. An extended real whose absolute value
  max x (−x) lies strictly below +∞ is neither −∞ (whose absolute value is +∞) nor +∞: it is a real number.
-/
import proofs.«102129_j79499844649266_2_alg».proof.Proof.Spec
import proofs.«102129_j79499844649266_2_alg».proof.Pre_finite_inputs
import Idealize.ShloMosaic.Lib.ReduceAll

noncomputable section

namespace Cert.Finite

open Idealize.ShloMosaic Idealize.ShloMosaic.ValueIdx

/-- The 32-bit pattern of +∞ denotes the top element. -/
theorem ofBits_inf : Ideal.ofBits .f32 0x7F800000#32 = (⊤ : EReal) := by
  simp [Ideal.ofBits, Ideal.ieee]

/-- An extended real whose absolute value lies strictly below +∞ is a real. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- One conjunct of the precondition: a conjunction over all entries of "|x| < +∞" that came out 1 makes every entry real. -/
theorem real_of_all [Cert.Pre_finite_inputs.Facts] (x : FVec Ideal Cert.Pre_finite_inputs.S8192x128 .f32)
    (init : IVec Cert.Pre_finite_inputs.S_ 1)
    (h : Host.reduce IntOp.andi
        (cmpf .olt (Host.absf x)
          (broadcastInDim Cert.Pre_finite_inputs.S8192x128 ![] Cert.Pre_finite_inputs.Facts.bcast_S_S8192x128
            (constant (F := Ideal) Cert.Pre_finite_inputs.S_ .f32 0x7F800000#32)))
        init Cert.Pre_finite_inputs.Facts.reducesTo_S8192x128_S_d0_1 Cert.Pre_finite_inputs.Facts.h_S_ ix0 = 1#1)
    (i : Cert.Pre_finite_inputs.S8192x128.Idx) : ∃ r : ℝ, x i = (r : EReal) :=
  real_of_abs_lt_top (x i) (Host.reduce_andi_all _ init _ _ ix0 h i)

/-- The precondition holding makes every entry of the three inputs a real number. -/
theorem real_of_finite [Cert.Pre_finite_inputs.Facts] (x0 x1 x2 : Cert.Contrastive.Mat)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ix0
  dsimp only [Cert.Pre_finite_inputs.fn] at e
  obtain ⟨e01, e2⟩ := IntOp.andi_eq_one.1 e
  obtain ⟨e0, e1⟩ := IntOp.andi_eq_one.1 e01
  exact ⟨real_of_all x0 _ e0, real_of_all x1 _ e1, real_of_all x2 _ e2⟩

end Cert.Finite

end
-- ==== Proof.Preserves.lean ====
/-
  The idealization ledger. The ideal program differs from the original in seven places: six occurrences of the literal 20.0,
  printed as the named constant "inv_taf" whose value is the exact reciprocal 268435456 / 13421773 of the temperature, and one
  round trip through the 16-bit format that the ideal program omits. Each is an instance of its rule's statement.
-/
import proofs.«102129_j79499844649266_2_alg».proof.Defs
import Idealize.ShloMosaic.PureOps.IdealRules

noncomputable section

namespace Cert.Proof.Parts

open Idealize.ShloMosaic

/-- One named-constant entry: the table gives "inv_taf" the value 268435456 / 13421773. -/
theorem inv_taf_entry :
    IdealRules.named_const.Statement Cert.KernelIdeal.κ "inv_taf" .f32 0x41A00000#32 ((268435456 / 13421773 : ℝ) : EReal) :=
  IdealRules.named_const.statement Cert.KernelIdeal.κ "inv_taf" .f32 0x41A00000#32 ((268435456 / 13421773 : ℝ) : EReal) rfl

/-- The seven entries of the ledger, in its order. -/
theorem preserves : Cert.preserves_Kernel_KernelIdeal :=
  ⟨inv_taf_entry, inv_taf_entry, IdealRules.truncf_extf.statement _ .f32 .bf16,
    inv_taf_entry, inv_taf_entry, inv_taf_entry, inv_taf_entry⟩

end Cert.Proof.Parts

end
-- ==== Proof.lean ====
/- The proof of `Cert.Claim` (proofs.«102129_j79499844649266_2_alg».proof.Defs): a contrastive loss over three arrays
   `z`, `zp`, `zn` of 8192 rows of 128 entries, computed by two kernel regions and a host mean, against its plain
   array form.

   Both programs scale every row to unit length (the length clamped below by ε) and take, for row `i`, the inner
   products of row `i` of `z` with every row of `zp` and of `zn`. One multiplies them by a constant `c`, subtracts
   `c` under the exponential and adds it back outside the logarithm; the other divides them by the temperature `τ`,
   subtracts the row's maximum under the exponential and reads the logarithm of the normalised row at column `i`.
   The constant is named the exact reciprocal of `τ` (the ledger's six entries; the seventh removes a round trip
   through a narrower float format, the identity on extended reals). With finite inputs every intermediate is a real
   number, a shift under the exponential cancels against the same shift outside the logarithm, and both results are
   the mean over the rows of  log ∑ⱼ exp ℓᵢⱼ − ℓᵢᵢ  (Proof/Spec.lean states the two forms, Proof/Algebra.lean joins them).

   The kernel side: Proof/KRun.lean names the result buffer's last contents; Proof/Region0.lean and
   Proof/Region1Value.lean read what each region leaves, Proof/KTail.lean the host mean. The reference side:
   Proof/RefValue.lean reads its operations one at a time. Proof/Finite.lean opens the precondition. -/
import proofs.«102129_j79499844649266_2_alg».proof.Defs
import proofs.«102129_j79499844649266_2_alg».proof.Proof.Gen.Kernel
import proofs.«102129_j79499844649266_2_alg».proof.Proof.Gen.Kernel.Skeleton
import proofs.«102129_j79499844649266_2_alg».proof.Proof.Gen.Kernel.Launch
import proofs.«102129_j79499844649266_2_alg».proof.Proof.Gen.Kernel.Points
import proofs.«102129_j79499844649266_2_alg».proof.Proof.Gen.Kernel.Frame
import proofs.«102129_j79499844649266_2_alg».proof.Proof.Gen.KernelIdeal
import proofs.«102129_j79499844649266_2_alg».proof.Proof.Gen.KernelIdeal.Skeleton
import proofs.«102129_j79499844649266_2_alg».proof.Proof.Gen.KernelIdeal.Launch
import proofs.«102129_j79499844649266_2_alg».proof.Proof.Gen.KernelIdeal.Points
import proofs.«102129_j79499844649266_2_alg».proof.Proof.Gen.KernelIdeal.Frame
import proofs.«102129_j79499844649266_2_alg».proof.Proof.Gen.ReferenceIdeal
import proofs.«102129_j79499844649266_2_alg».proof.Proof.Gen.Pre_finite_inputs
import proofs.«102129_j79499844649266_2_alg».proof.Proof.RefRunThmP
import proofs.«102129_j79499844649266_2_alg».proof.Proof.RefReadP
import proofs.«102129_j79499844649266_2_alg».proof.Proof.RefValue
import proofs.«102129_j79499844649266_2_alg».proof.Proof.KRun
import proofs.«102129_j79499844649266_2_alg».proof.Proof.KTail
import proofs.«102129_j79499844649266_2_alg».proof.Proof.Algebra
import proofs.«102129_j79499844649266_2_alg».proof.Proof.Finite
import proofs.«102129_j79499844649266_2_alg».proof.Proof.Preserves
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- On extended reals the idealized kernel ends at `kLoss` of its arguments and the reference at `rLoss` of the same
    arrays; the precondition makes every entry a real number, where the two agree. -/
theorem algebraic : Cert.algebraic_KernelIdeal_ReferenceIdeal := by
  intro m ρ m' ρ' hpre hagree
  refine ⟨fun c _ => Cert.Contrastive.kLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KValue.kernel_value m ρ c), (h c).2⟩)
      (Cert.KernelIdeal.KValue.run_v3 (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v30_eq, (hagree c).1, (hagree c).2.1, (hagree c).2.2,
      Cert.ReferenceIdeal.RefValue.result_eq]
    funext _
    obtain ⟨f0, f1, f2⟩ := Cert.Finite.real_of_finite _ _ _ (hpre c)
    exact (Cert.Contrastive.kLoss_eq_rLoss _ _ _ f0 f1 f2).symm

theorem claim : Cert.Claim :=
  ⟨Cert.Kernel.Gen.facts, Cert.KernelIdeal.Gen.facts, Cert.ReferenceIdeal.Gen.facts, Cert.Pre_finite_inputs.Gen.facts,
    frame_k, frame_ki, frame_ri, Cert.Proof.Parts.preserves, algebraic⟩

end Cert.Proof

end
